-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x3 : Shape := ⟨3, ![32, 1024, 3]⟩
abbrev S32x1024 : Shape := ⟨2, ![32, 1024]⟩
abbrev S_ : Shape := ⟨0, ![]⟩

class Facts : Prop where
  bcast_S_S32x1024x3 : S_.BroadcastsInDim S32x1024x3 (![] : Fin 0 → Fin S32x1024x3.rank)
  reducesTo_S32x1024x3_S_d0_1_2 : S32x1024x3.ReducesTo [0, 1, 2] S_
  h_S_ : 0 < S_.numel

variable [Facts]

def fn {F : FTy → Type} [FloatOps F] (main_arg0 : FVec F S32x1024x3 .f32) (main_arg1 : FVec F S32x1024x3 .f32) (main_arg2 : IVec S32x1024 32) : IVec S_ 1 :=
  let main_v0 : FVec F S32x1024x3 .f32 := Host.absf main_arg0
  let main_cst : FVec F S_ .f32 := constant S_ .f32 0x7F800000#32
  let main_v1 : FVec F S32x1024x3 .f32 := broadcastInDim S32x1024x3 ![] bcast_S_S32x1024x3 main_cst
  let main_v2 : IVec S32x1024x3 1 := cmpf .olt main_v0 main_v1
  let main_c : IVec S_ 1 := constantI S_ 1 1#1
  let main_v3 : IVec S_ 1 := (fun x v => Host.reduce IntOp.andi x v reducesTo_S32x1024x3_S_d0_1_2 h_S_) main_v2 main_c
  let main_v4 : FVec F S32x1024x3 .f32 := Host.absf main_arg1
  let main_cst_0 : FVec F S_ .f32 := constant S_ .f32 0x7F800000#32
  let main_v5 : FVec F S32x1024x3 .f32 := broadcastInDim S32x1024x3 ![] bcast_S_S32x1024x3 main_cst_0
  let main_v6 : IVec S32x1024x3 1 := cmpf .olt main_v4 main_v5
  let main_c_1 : IVec S_ 1 := constantI S_ 1 1#1
  let main_v7 : IVec S_ 1 := (fun x v => Host.reduce IntOp.andi x v reducesTo_S32x1024x3_S_d0_1_2 h_S_) main_v6 main_c_1
  let main_v8 : IVec S_ 1 := andi main_v3 main_v7
  main_v8
-- ==== Kernel.lean ====
abbrev S32x1024x3 : Shape := ⟨3, ![32, 1024, 3]⟩
abbrev S32x1024 : Shape := ⟨2, ![32, 1024]⟩
abbrev S32x1x1024 : Shape := ⟨3, ![32, 1, 1024]⟩
abbrev S32x4x1x128 : Shape := ⟨4, ![32, 4, 1, 128]⟩
abbrev S1x256x3 : Shape := ⟨3, ![1, 256, 3]⟩
abbrev S1x1024x3 : Shape := ⟨3, ![1, 1024, 3]⟩
abbrev S1x1x256 : Shape := ⟨3, ![1, 1, 256]⟩
abbrev S1x1x1024 : Shape := ⟨3, ![1, 1, 1024]⟩
abbrev S1x1x1x128 : Shape := ⟨4, ![1, 1, 1, 128]⟩
abbrev S256x3 : Shape := ⟨2, ![256, 3]⟩
abbrev S1024x3 : Shape := ⟨2, ![1024, 3]⟩
abbrev S256 : Shape := ⟨1, ![256]⟩
abbrev S1024 : Shape := ⟨1, ![1024]⟩
abbrev S256x1024 : Shape := ⟨2, ![256, 1024]⟩
abbrev S256x1 : Shape := ⟨2, ![256, 1]⟩
abbrev S1024x1 : Shape := ⟨2, ![1024, 1]⟩
abbrev S1x1024 : Shape := ⟨2, ![1, 1024]⟩
abbrev S1 : Shape := ⟨1, ![1]⟩
abbrev S1x1 : Shape := ⟨2, ![1, 1]⟩
abbrev S32x4x1x1 : Shape := ⟨4, ![32, 4, 1, 1]⟩
abbrev S32x4 : Shape := ⟨2, ![32, 4]⟩
abbrev S_ : Shape := ⟨0, ![]⟩

abbrev nBuf : Space → Nat
  | .hbm => 15
  | .vmem => 16
  | .smem => 0
  | _ => 0

abbrev bufTy : (tb : Table) → Fin (tcTables nBuf tb) → BufTy
  | .hbm, ⟨0, _⟩ => ⟨S32x1024x3, .f32⟩
  | .hbm, ⟨1, _⟩ => ⟨S32x1024x3, .f32⟩
  | .hbm, ⟨2, _⟩ => ⟨S32x1024, .i32⟩
  | .hbm, ⟨3, _⟩ => ⟨S32x1x1024, .i32⟩
  | .hbm, ⟨4, _⟩ => ⟨S32x4x1x128, .f32⟩
  | .hbm, ⟨5, _⟩ => ⟨S32x4x1x128, .f32⟩
  | .hbm, ⟨6, _⟩ => ⟨S32x4x1x1, .f32⟩
  | .hbm, ⟨7, _⟩ => ⟨S32x4, .f32⟩
  | .hbm, ⟨8, _⟩ => ⟨S_, .f32⟩
  | .hbm, ⟨9, _⟩ => ⟨S_, .f32⟩
  | .hbm, ⟨10, _⟩ => ⟨S32x4x1x1, .f32⟩
  | .hbm, ⟨11, _⟩ => ⟨S32x4, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x256x3, .f32⟩
  | .local _ .vmem, ⟨1, _⟩ => ⟨S1x256x3, .f32⟩
  | .local _ .vmem, ⟨2, _⟩ => ⟨S1x1024x3, .f32⟩
  | .local _ .vmem, ⟨3, _⟩ => ⟨S1x1024x3, .f32⟩
  | .local _ .vmem, ⟨4, _⟩ => ⟨S1x256x3, .f32⟩
  | .local _ .vmem, ⟨5, _⟩ => ⟨S1x256x3, .f32⟩
  | .local _ .vmem, ⟨6, _⟩ => ⟨S1x1024x3, .f32⟩
  | .local _ .vmem, ⟨7, _⟩ => ⟨S1x1024x3, .f32⟩
  | .local _ .vmem, ⟨8, _⟩ => ⟨S1x1x256, .i32⟩
  | .local _ .vmem, ⟨9, _⟩ => ⟨S1x1x256, .i32⟩
  | .local _ .vmem, ⟨10, _⟩ => ⟨S1x1x1024, .i32⟩
  | .local _ .vmem, ⟨11, _⟩ => ⟨S1x1x1024, .i32⟩
  | .local _ .vmem, ⟨12, _⟩ => ⟨S1x1x1x128, .f32⟩
  | .local _ .vmem, ⟨13, _⟩ => ⟨S1x1x1x128, .f32⟩
  | .local _ .vmem, ⟨14, _⟩ => ⟨S1x1x1x128, .f32⟩
  | .local _ .vmem, ⟨15, _⟩ => ⟨S1x1x1x128, .f32⟩
  | _, _ => ⟨S32x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S32x1024_S32x1x1024_0_2 : S32x1024.BroadcastsInDim S32x1x1024 (![0, 2] : Fin 2 → Fin S32x1x1024.rank)
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x1x256_S1x1x256_0_0_0 : ∀ a, (![0, 0, 0] : Fin 3 → Nat) a + S1x1x256.size a ≤ S1x1x256.size a
  h_S1x1x256 : 0 < S1x1x256.numel
  shapeCasts_S1x1x256_S256 : S1x1x256.ShapeCasts S256
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  slices_S256x3_o0_0_S256x1 : S256x3.Slices ![0, 0] S256x1
  shapeCasts_S256x1_S256 : S256x1.ShapeCasts S256
  shapeCasts_S256_S256x1 : S256.ShapeCasts S256x1
  slices_S1024x3_o0_0_S1024x1 : S1024x3.Slices ![0, 0] S1024x1
  shapeCasts_S1024x1_S1024 : S1024x1.ShapeCasts S1024
  shapeCasts_S1024_S1x1024 : S1024.ShapeCasts S1x1024
  broadcasts_S256x1_S256x1024 : S256x1.Broadcasts S256x1024
  broadcasts_S1x1024_S256x1024 : S1x1024.Broadcasts S256x1024
  slices_S256x3_o0_1_S256x1 : S256x3.Slices ![0, 1] S256x1
  slices_S1024x3_o0_1_S1024x1 : S1024x3.Slices ![0, 1] S1024x1
  slices_S256x3_o0_2_S256x1 : S256x3.Slices ![0, 2] S256x1
  slices_S1024x3_o0_2_S1024x1 : S1024x3.Slices ![0, 2] S1024x1
  reduces_S256x1024_S256 : S256x1024.Reduces [1] S256
  reduces_S256x1_S1 : S256x1.Reduces [0] S1
  shapeCasts_S1_S1x1 : S1.ShapeCasts S1x1
  inpos_S1x1_p0_0 : ∀ a, (![0, 0] : Fin 2 → Nat) a < S1x1.size a
  inb_S1x1x1x128_S1x1x1x128_0_0_0_0 : ∀ a, (![0, 0, 0, 0] : Fin 4 → Nat) a + S1x1x1x128.size a ≤ S1x1x1x128.size a
  h_S1x1x1x128 : 0 < S1x1x1x128.numel
  slices_S32x4x1x128_S32x4x1x1_0_0_0_0 : S32x4x1x128.Slices ![0, 0, 0, 0] S32x4x1x1
  shapeCasts_S32x4x1x1_S32x4 : S32x4x1x1.ShapeCasts S32x4
  reducesTo_S32x4_S_d0_1 : S32x4.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3.size a ≤ S32x1024x3.size a
  hwx0_0 : ∀ i : grid0.Coords, EltTy.bits .f32 = 32 ∨ (Rect.block (s := S32x1024x3) S1x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S32x1024x3.size a
  hwx0_1 : ∀ i : grid0.Coords, EltTy.bits .f32 = 32 ∨ (Rect.block (s := S32x1024x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x3.size a ≤ S32x1024x3.size a
  hwx0_2 : ∀ i : grid0.Coords, EltTy.bits .f32 = 32 ∨ (Rect.block (s := S32x1024x3) S1x256x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x3.size a ≤ S32x1024x3.size a
  hwx0_3 : ∀ i : grid0.Coords, EltTy.bits .f32 = 32 ∨ (Rect.block (s := S32x1024x3) S1x1024x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S32x1x1024.size a
  hwx0_4 : ∀ i : grid0.Coords, EltTy.bits .i32 = 32 ∨ (Rect.block (s := S32x1x1024) S1x1x256.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S32x1x1024.size a
  hwx0_5 : ∀ i : grid0.Coords, EltTy.bits .i32 = 32 ∨ (Rect.block (s := S32x1x1024) S1x1x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1x128.size a ≤ S32x4x1x128.size a
  hwx0_6 : ∀ i : grid0.Coords, EltTy.bits .f32 = 32 ∨ (Rect.block (s := S32x4x1x128) S1x1x1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1x128.size a ≤ S32x4x1x128.size a
  hwx0_7 : ∀ i : grid0.Coords, EltTy.bits .f32 = 32 ∨ (Rect.block (s := S32x4x1x128) S1x1x1x128.size (cc0_transform_7 i) (hinb0_7 i)).WholeWords (EltTy.packing .f32)

variable [Facts₀]

abbrev win0_0 : Pipeline.Window sig grid0 :=
  Pipeline.Window.ofSpec (Memref.whole main_arg0) S1x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x256x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x1024x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_0) S1x1x1x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_1) S1x1x1x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x1024x3 : Shape := ⟨3, ![32, 1024, 3]⟩
abbrev S32x1024 : Shape := ⟨2, ![32, 1024]⟩
abbrev S32x1024x1 : Shape := ⟨3, ![32, 1024, 1]⟩
abbrev S32x1x1024 : Shape := ⟨3, ![32, 1, 1024]⟩
abbrev S32x1024x1024 : Shape := ⟨3, ![32, 1024, 1024]⟩
abbrev S32x1024x1x3 : Shape := ⟨4, ![32, 1024, 1, 3]⟩
abbrev S32x1x1024x3 : Shape := ⟨4, ![32, 1, 1024, 3]⟩
abbrev S32x1024x1024x3 : Shape := ⟨4, ![32, 1024, 1024, 3]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S32x1024x3, .f32⟩
  | .hbm, ⟨1, _⟩ => ⟨S32x1024x3, .f32⟩
  | .hbm, ⟨2, _⟩ => ⟨S32x1024, .i32⟩
  | .hbm, ⟨3, _⟩ => ⟨S32x1024, .f32⟩
  | .hbm, ⟨4, _⟩ => ⟨S32x1024x1, .f32⟩
  | .hbm, ⟨5, _⟩ => ⟨S32x1x1024, .f32⟩
  | .hbm, ⟨6, _⟩ => ⟨S32x1024x1024, .f32⟩
  | .hbm, ⟨7, _⟩ => ⟨S32x1024x1024, .f32⟩
  | .hbm, ⟨8, _⟩ => ⟨S32x1024x1024, .f32⟩
  | .hbm, ⟨9, _⟩ => ⟨S32x1024x1x3, .f32⟩
  | .hbm, ⟨10, _⟩ => ⟨S32x1x1024x3, .f32⟩
  | .hbm, ⟨11, _⟩ => ⟨S32x1024x1024x3, .f32⟩
  | .hbm, ⟨12, _⟩ => ⟨S32x1024x1024x3, .f32⟩
  | .hbm, ⟨13, _⟩ => ⟨S32x1024x1024x3, .f32⟩
  | .hbm, ⟨14, _⟩ => ⟨S32x1024x1024x3, .f32⟩
  | .hbm, ⟨15, _⟩ => ⟨S_, .f32⟩
  | .hbm, ⟨16, _⟩ => ⟨S32x1024x1024, .f32⟩
  | .hbm, ⟨17, _⟩ => ⟨S_, .f32⟩
  | .hbm, ⟨18, _⟩ => ⟨S32x1024x1024, .f32⟩
  | .hbm, ⟨19, _⟩ => ⟨S32x1024x1024, .i1⟩
  | .hbm, ⟨20, _⟩ => ⟨S_, .f32⟩
  | .hbm, ⟨21, _⟩ => ⟨S_, .f32⟩
  | .hbm, ⟨22, _⟩ => ⟨S32x1024x1024, .f32⟩
  | .hbm, ⟨23, _⟩ => ⟨S32x1024x1024, .f32⟩
  | .hbm, ⟨24, _⟩ => ⟨S32x1024x1024, .f32⟩
  | .hbm, ⟨25, _⟩ => ⟨S_, .f32⟩
  | .hbm, ⟨26, _⟩ => ⟨S_, .f32⟩
  | .hbm, ⟨27, _⟩ => ⟨S32x1024x1024, .f32⟩
  | .hbm, ⟨28, _⟩ => ⟨S32x1024x1024, .f32⟩
  | .hbm, ⟨29, _⟩ => ⟨S32x1024x1x3, .f32⟩
  | .hbm, ⟨30, _⟩ => ⟨S32x1x1024x3, .f32⟩
  | .hbm, ⟨31, _⟩ => ⟨S32x1024x1024x3, .f32⟩
  | .hbm, ⟨32, _⟩ => ⟨S32x1024x1024x3, .f32⟩
  | .hbm, ⟨33, _⟩ => ⟨S32x1024x1024x3, .f32⟩
  | .hbm, ⟨34, _⟩ => ⟨S32x1024x1024x3, .f32⟩
  | .hbm, ⟨35, _⟩ => ⟨S_, .f32⟩
  | .hbm, ⟨36, _⟩ => ⟨S32x1024x1024, .f32⟩
  | .hbm, ⟨37, _⟩ => ⟨S_, .f32⟩
  | .hbm, ⟨38, _⟩ => ⟨S32x1024x1024, .f32⟩
  | .hbm, ⟨39, _⟩ => ⟨S32x1024x1024, .i1⟩
  | .hbm, ⟨40, _⟩ => ⟨S_, .f32⟩
  | .hbm, ⟨41, _⟩ => ⟨S_, .f32⟩
  | .hbm, ⟨42, _⟩ => ⟨S32x1024x1024, .f32⟩
  | .hbm, ⟨43, _⟩ => ⟨S32x1024x1024, .f32⟩
  | .hbm, ⟨44, _⟩ => ⟨S32x1024x1024, .f32⟩
  | .hbm, ⟨45, _⟩ => ⟨S_, .f32⟩
  | .hbm, ⟨46, _⟩ => ⟨S_, .f32⟩
  | .hbm, ⟨47, _⟩ => ⟨S32x1024x1024, .f32⟩
  | .hbm, ⟨48, _⟩ => ⟨S32x1024x1024, .f32⟩
  | .hbm, ⟨49, _⟩ => ⟨S32x1024x1024, .f32⟩
  | .hbm, ⟨50, _⟩ => ⟨S32x1024x1024, .f32⟩
  | .hbm, ⟨51, _⟩ => ⟨S_, .f32⟩
  | .hbm, ⟨52, _⟩ => ⟨S32x1024x1024, .f32⟩
  | .hbm, ⟨53, _⟩ => ⟨S32x1024x1024, .f32⟩
  | .hbm, ⟨54, _⟩ => ⟨S32x1024x1024, .f32⟩
  | .hbm, ⟨55, _⟩ => ⟨S32x1024x1024, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S32x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_call1_v0 : Ref sig .tc := ⟨.hbm, 26, rfl⟩
abbrev main_call1_v1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_call2_v0 : Ref sig .tc := ⟨.hbm, 41, rfl⟩
abbrev main_call2_v1 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_call3_v0 : Ref sig .tc := ⟨.hbm, 46, rfl⟩
abbrev main_call3_v1 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩

abbrev nD : Nat := 1
abbrev τ : Topo := Topo.v7x

variable {F : FTy → Type} [FloatOps F]

class Facts₀ : Prop where
  bcast_S32x1024_S32x1024x1_0_1 : S32x1024.BroadcastsInDim S32x1024x1 (![0, 1] : Fin 2 → Fin S32x1024x1.rank)
  bcast_S32x1024_S32x1x1024_0_2 : S32x1024.BroadcastsInDim S32x1x1024 (![0, 2] : Fin 2 → Fin S32x1x1024.rank)
  bcast_S32x1024x1_S32x1024x1024_0_1_2 : S32x1024x1.BroadcastsInDim S32x1024x1024 (![0, 1, 2] : Fin 3 → Fin S32x1024x1024.rank)
  bcast_S32x1x1024_S32x1024x1024_0_1_2 : S32x1x1024.BroadcastsInDim S32x1024x1024 (![0, 1, 2] : Fin 3 → Fin S32x1024x1024.rank)
  bcast_S32x1024x3_S32x1024x1x3_0_1_3 : S32x1024x3.BroadcastsInDim S32x1024x1x3 (![0, 1, 3] : Fin 3 → Fin S32x1024x1x3.rank)
  bcast_S32x1024x3_S32x1x1024x3_0_2_3 : S32x1024x3.BroadcastsInDim S32x1x1024x3 (![0, 2, 3] : Fin 3 → Fin S32x1x1024x3.rank)
  bcast_S32x1024x1x3_S32x1024x1024x3_0_1_2_3 : S32x1024x1x3.BroadcastsInDim S32x1024x1024x3 (![0, 1, 2, 3] : Fin 4 → Fin S32x1024x1024x3.rank)
  bcast_S32x1x1024x3_S32x1024x1024x3_0_1_2_3 : S32x1x1024x3.BroadcastsInDim S32x1024x1024x3 (![0, 1, 2, 3] : Fin 4 → Fin S32x1024x1024x3.rank)
  reducesTo_S32x1024x1024x3_S32x1024x1024_d3 : S32x1024x1024x3.ReducesTo [3] S32x1024x1024
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_

variable [Facts₀]

class Facts : Prop extends Facts₀ where

variable [Facts]
-- ==== Proof.KernelTileFrame.lean ====
/-
  The run of the pairwise-distance kernel's program, for any float instance.

  @main is: the mask reshaped to [32, 1, 1024]; the pipelined region over the 32 x 4 grid of (cloud, query tile); then the
  host lines that take entry [b, q, 0, 0] of each of the two result arrays, add the 128 entries up and divide.
  Windows 0 and 1 read the first point array (the tile's 256 rows; all 1024 rows), windows 2 and 3 the second, windows 4
  and 5 the reshaped mask: each pair shares ONE array, so each window of a pair holds half of the array's share while
  the region runs. Windows 6 and 7 are the two results, one (1,1,1,128) block per grid point, every block written back.
  The body reads its six input blocks whole and stores one value, broadcast, into each output block.
-/
import proofs.«155562_j5179730559713_2_alg».proof.Proof.Gen.Kernel.Launch
import proofs.«155562_j5179730559713_2_alg».proof.Proof.Gen.Kernel.Skeleton
import proofs.«155562_j5179730559713_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.TileFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The device's buffers when the region is entered: the launch contents after the one host line before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the later lines, entered at the contents after the earlier line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the two output blocks -/

abbrev rOut : Rect S1x1x1x128 := Rect.unit (s := S1x1x1x128) ![0, 0, 0, 0] S1x1x1x128.size inb_S1x1x1x128_S1x1x1x128_0_0_0_0
abbrev rQ : Rect S1x256x3 := Rect.unit (s := S1x256x3) ![0, 0, 0] S1x256x3.size inb_S1x256x3_S1x256x3_0_0_0
abbrev rK : Rect S1x1024x3 := Rect.unit (s := S1x1024x3) ![0, 0, 0] S1x1024x3.size inb_S1x1024x3_S1x1024x3_0_0_0
abbrev rMQ : Rect S1x1x256 := Rect.unit (s := S1x1x256) ![0, 0, 0] S1x1x256.size inb_S1x1x256_S1x1x256_0_0_0
abbrev rMK : Rect S1x1x1024 := Rect.unit (s := S1x1x1024) ![0, 0, 0] S1x1x1024.size inb_S1x1x1024_S1x1x1024_0_0_0

/-- The value stored into the first result's block, from the six input blocks. -/
def numPay (x0 : Vec F S1x256x3 .f32) (x1 : Vec F S1x1024x3 .f32) (x2 : Vec F S1x256x3 .f32) (x3 : Vec F S1x1024x3 .f32)
    (x4 : Vec F S1x1x256 .i32) (x5 : Vec F S1x1x1024 .i32) : Vec F S1x1x1x128 .f32 :=
  k0_pay1 (k0_pay11 (k0_pay5 x2) (k0_pay6 x3) (k0_pay10 x2 x3)) (k0_pay12 (k0_pay7 x4) (k0_pay8 x5))
    (k0_pay13 (k0_pay3 x0) (k0_pay4 x1) (k0_pay5 x2) (k0_pay6 x3) (k0_pay9 x0 x1) (k0_pay10 x2 x3)) (Scalar.ofBits .f32 0x322BCC77#32)

/-- The value stored into the second result's block, from the two mask blocks. -/
def denPay (x4 : Vec F S1x1x256 .i32) (x5 : Vec F S1x1x1024 .i32) : Vec F S1x1x1x128 .f32 :=
  k0_pay2 (k0_pay12 (k0_pay7 x4) (k0_pay8 x5))

/-- The first result's staging buffer after the body: its one store, which covers the block. -/
def out6 (x0 : Vec F S1x256x3 .f32) (x1 : Vec F S1x1024x3 .f32) (x2 : Vec F S1x256x3 .f32) (x3 : Vec F S1x1024x3 .f32)
    (x4 : Vec F S1x1x256 .i32) (x5 : Vec F S1x1x1024 .i32) : Vec F S1x1x1x128 .f32 :=
  View.canon [⟨rOut, numPay (View.ld x0 rQ) (View.ld x1 rK) (View.ld x2 rQ) (View.ld x3 rK) (View.ld x4 rMQ) (View.ld x5 rMK)⟩]

/-- The second result's staging buffer after the body. -/
def out7 (x4 : Vec F S1x1x256 .i32) (x5 : Vec F S1x1x1024 .i32) : Vec F S1x1x1x128 .f32 :=
  View.canon [⟨rOut, denPay (View.ld x4 rMQ) (View.ld x5 rMK)⟩]

theorem coverOut (p0 : Vec F S1x1x1x128 .f32) (y : S1x1x1x128.Idx) :
    ∃ pc ∈ ([⟨rOut, p0⟩] : List (View.Piece (Elt F) S1x1x1x128 .f32)), y ∈ pc.1.set :=
  View.cover_of_tiled [⟨rOut, p0⟩] S1x1x1x128.size (by rfl) y

/-! ## The body's triple -/

set_option maxHeartbeats 1000000 in
/-- The body on whole staging memrefs — the six inputs at read contents, the two outputs at anything — leaves the inputs as
    they were and each output at its one store. -/
theorem sound_kernel (c : Dev nD) (E : Set ℕ) (i : grid0.Coords)
    (a0 : Memref sig .tc .vmem S1x256x3 .f32) (h0 : a0.IsWhole) (a1 : Memref sig .tc .vmem S1x1024x3 .f32) (h1 : a1.IsWhole)
    (a2 : Memref sig .tc .vmem S1x256x3 .f32) (h2 : a2.IsWhole) (a3 : Memref sig .tc .vmem S1x1024x3 .f32) (h3 : a3.IsWhole)
    (a4 : Memref sig .tc .vmem S1x1x256 .i32) (h4 : a4.IsWhole) (a5 : Memref sig .tc .vmem S1x1x1024 .i32) (h5 : a5.IsWhole)
    (a6 : Memref sig .tc .vmem S1x1x1x128 .f32) (h6 : a6.IsWhole) (a7 : Memref sig .tc .vmem S1x1x1x128 .f32) (h7 : a7.IsWhole)
    (x0 : Vec F S1x256x3 .f32) (x1 : Vec F S1x1024x3 .f32) (x2 : Vec F S1x256x3 .f32) (x3 : Vec F S1x1024x3 .f32)
    (x4 : Vec F S1x1x256 .i32) (x5 : Vec F S1x1x1024 .i32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ (∃ d, owns (c : Thread nD τ) a6 fullShare d) ∗ (∃ d, owns (c : Thread nD τ) a7 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare (out6 x0 x1 x2 x3 x4 x5) ∗ owns (c : Thread nD τ) a7 fullShare (out7 x4 x5)) -∗ K ⟨⟩))
      ⊢ wp frame (wpE (defs₀ (F := F)) Variants.none c none) E (cc0__kernel i a0 h0 a1 h1 a2 h2 a3 h3 a4 h4 a5 h5 a6 h6 a7 h7) K := by
  simp only [cc0__kernel_eq_skeleton]; unfold cc0__kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverOut _)
  iexists _; isplitr
  swap; · iexact H7
  ipureintro
  exact View.read_writes_eq_canon _ _ _ (coverOut _)

/-! ## The pipeline's proof data -/

/-- The proof data of the pipeline on core `c`: the arrays as the region finds them; after the body at point `t` each input's
    buffer at its block and each output's at its one store over the input blocks; the invariant the scoped rest and the
    generator register, untouched; nothing owed; of each shared array the first window of the pair holds the left half
    of the share and the second the right half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
    | ⟨7, _⟩ => out7 (iblk m c 4 t) (iblk m c 5 t)
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = out6 (iblk m c 0 t) (iblk m c 1 t) (iblk m c 2 t) (iblk m c 3 t) (iblk m c 4 t) (iblk m c 5 t) := by dsimp only [dats]
theorem after7 (c : Dev nD) (t : Fin cfg0.N) : (dats m 0 c).after 7 t = out7 (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.TileFrame

end
-- ==== Proof.KernelTileLaunch.lean ====
/-
  The launch of the pairwise-distance kernel's program, for any float instance: every execution of @main terminates with
  the three argument arrays unchanged and the scalar result at the host lines' value of the two result arrays the region
  leaves.

  Each pair of windows over one array holds that array's two half shares while the region runs: at entry each shared
  array's full share is split in two, and the arrays come back at the end as the windows held them. The two result
  arrays are held whole, so the host lines after the region read them and write their own buffers beside them.
-/
import proofs.«155562_j5179730559713_2_alg».proof.Proof.KernelTileFrame

set_option maxRecDepth 16384

noncomputable section

namespace Cert.Kernel.TileLaunch

open Cert.Kernel Cert.Kernel.Gen Cert.Kernel.TileFrame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the windows' shares -/

/-- The windows' arrays are whole buffers, so the pipeline's arrays are whole points-tos, window `w`'s at its share. -/
theorem arrays_eq' (c : Dev nD) (Fn : (w : Fin cfg0.W) → Buf (Elt F) ((cfg0.win w).arr.view.loc (c.tc : Thread nD τ))) :
    ((dats m 0 c).arrays Fn : sProp 𝕄)
      = bigSep Finset.univ fun w : Fin 8 => (((c.tc : Thread nD τ).loc (Pipeline.arrRef spec0 w)) ↦{(dats m 0 c).share w} Fn w : sProp 𝕄) := by
  unfold Dat.arrays
  exact bigSep_congr fun w _ => by rw [(arr_whole0 w).set_eq_univ]

theorem share0 (c : Dev nD) : (dats m 0 c).share 0 = fullShare.left := rfl
theorem share1 (c : Dev nD) : (dats m 0 c).share 1 = fullShare.right := rfl
theorem share2 (c : Dev nD) : (dats m 0 c).share 2 = fullShare.left := rfl
theorem share3 (c : Dev nD) : (dats m 0 c).share 3 = fullShare.right := rfl
theorem share4 (c : Dev nD) : (dats m 0 c).share 4 = fullShare.left := rfl
theorem share5 (c : Dev nD) : (dats m 0 c).share 5 = fullShare.right := rfl
theorem share6 (c : Dev nD) : (dats m 0 c).share 6 = fullShare := rfl
theorem share7 (c : Dev nD) : (dats m 0 c).share 7 = fullShare := rfl

/-- The pipeline's arrays at contents `Fn`, window by window. -/
theorem arrays_chain (c : Dev nD) (Fn : (w : Fin cfg0.W) → Buf (Elt F) ((cfg0.win w).arr.view.loc (c.tc : Thread nD τ))) :
    ((dats m 0 c).arrays Fn : sProp 𝕄)
      = iprop((((c.tc : Thread nD τ).loc main_arg0) ↦{fullShare.left} Fn 0) ∗ (((c.tc : Thread nD τ).loc main_arg0) ↦{fullShare.right} Fn 1)
          ∗ (((c.tc : Thread nD τ).loc main_arg1) ↦{fullShare.left} Fn 2) ∗ (((c.tc : Thread nD τ).loc main_arg1) ↦{fullShare.right} Fn 3)
          ∗ (((c.tc : Thread nD τ).loc main_v0) ↦{fullShare.left} Fn 4) ∗ (((c.tc : Thread nD τ).loc main_v0) ↦{fullShare.right} Fn 5)
          ∗ (((c.tc : Thread nD τ).loc main_v1_0) ↦{fullShare} Fn 6) ∗ (((c.tc : Thread nD τ).loc main_v1_1) ↦{fullShare} Fn 7)) := by
  rw [arrays_eq', bigSep_W0, share0, share1, share2, share3, share4, share5, share6, share7]

/-- The distinct buffers behind the windows' arrays. -/
theorem arrRefs_eq : Finset.univ.image (Pipeline.arrRef spec0)
    = ([main_arg0, main_arg1, main_v0, main_v1_0, main_v1_1] : List (Ref sig .tc)).toFinset := by decide

/-- The five buffers behind the arrays, one by one. -/
theorem arrBufs_chain (c : Dev nD) (Vv : (b : Ref sig .tc) → Buf (Elt F) ((c.tc : Thread nD τ).loc b)) :
    (Pipeline.arrBufs spec0 c Vv : sProp 𝕄)
      = iprop((((c.tc : Thread nD τ).loc main_arg0) ↦{fullShare} Vv main_arg0) ∗ (((c.tc : Thread nD τ).loc main_arg1) ↦{fullShare} Vv main_arg1)
          ∗ (((c.tc : Thread nD τ).loc main_v0) ↦{fullShare} Vv main_v0) ∗ (((c.tc : Thread nD τ).loc main_v1_0) ↦{fullShare} Vv main_v1_0)
          ∗ (((c.tc : Thread nD τ).loc main_v1_1) ↦{fullShare} Vv main_v1_1)) :=
  bigSep_eq_bigSepL_of_eq [main_arg0, main_arg1, main_v0, main_v1_0, main_v1_1] arrRefs_eq (by decide) _

/-- ENTRY: the five buffers behind the arrays, each whole at the full share, are the eight windows' arrays: each of the
    three shared buffers' share is split in two halves, one per window of its pair. -/
theorem hsplit (c : Dev nD) :
    (Pipeline.arrBufs spec0 c (V m c) : sProp 𝕄) ⊢ (dats m 0 c).arrays ((dats m 0 c).arrAt · 0) := by
  rw [arrays_chain]
  rw [arrBufs_chain]
  refine (BIClass.sep_mono (pointsTo_share (PosShare.mem_left_op_right fullShare)).1
    (BIClass.sep_mono (pointsTo_share (PosShare.mem_left_op_right fullShare)).1
      (BIClass.sep_mono (pointsTo_share (PosShare.mem_left_op_right fullShare)).1 .rfl))).trans ?_
  iintro ⟨⟨A0, A1⟩, ⟨B0, B1⟩, ⟨C0, C1⟩, D0, D1⟩
  isplitl [A0]; · iexact A0
  isplitl [A1]; · iexact A1
  isplitl [B0]; · iexact B0
  isplitl [B1]; · iexact B1
  isplitl [C0]; · iexact C0
  isplitl [C1]; · iexact C1
  isplitl [D0]; · iexact D0
  iexact D1

/-! ## The host lines after the region -/

/-- The references the later lines read or write: the two result arrays and the lines' own buffers. -/
abbrev tailList : List (Ref sig .tc) :=
  [main_v1_0, main_v1_1, main_v2, main_v3, main_cst, main_v4, main_v5, main_v6, main_cst_0, main_v7, main_v8]
/-- The same as device buffers. -/
abbrev tailSet : Finset (DevRef τ sig) := (tailList.map (Proc.devRef (τ := τ) .tc)).toFinset

/-- The device's buffers when the region is left: the two result arrays as the region wrote them, every other buffer as
    the region found it. -/
def W1 (c : Dev nD) : Valuation τ sig (Elt F) := by
  classical
  exact Function.update (Function.update (V0 m c) (Proc.devRef .tc main_v1_0) ((dats m 0 c).arrAt 6 cfg0.N))
    (Proc.devRef .tc main_v1_1) ((dats m 0 c).arrAt 7 cfg0.N)

/-- The device's buffers after the later lines. -/
abbrev W2 (c : Dev nD) : Valuation τ sig (Elt F) := StableHlo.after (List.flatten [hostOps1]) (W1 m c)

theorem W1_v1_0 (c : Dev nD) : W1 m c (Proc.devRef .tc main_v1_0) = (dats m 0 c).arrAt 6 cfg0.N := by
  classical
  unfold W1
  rw [Function.update_of_ne (StableHlo.devRef_ne_of_ne (by decide)), Function.update_self]
theorem W1_v1_1 (c : Dev nD) : W1 m c (Proc.devRef .tc main_v1_1) = (dats m 0 c).arrAt 7 cfg0.N := by
  classical
  unfold W1
  rw [Function.update_self]
theorem W1_of_ne (c : Dev nD) (r : Ref sig .tc) (h0 : r ≠ main_v1_0) (h1 : r ≠ main_v1_1) :
    W1 m c (Proc.devRef .tc r) = V0 m c (Proc.devRef .tc r) := by
  classical
  unfold W1
  rw [Function.update_of_ne (StableHlo.devRef_ne_of_ne h1), Function.update_of_ne (StableHlo.devRef_ne_of_ne h0)]

/-- The later lines write neither result array. -/
theorem hostOps1_keeps (r : Ref sig .tc) (hr : r ∉ ([main_v2, main_v3, main_cst, main_v4, main_v5, main_v6, main_cst_0, main_v7, main_v8] : List (Ref sig .tc)))
    (Wv : Valuation τ sig (Elt F)) :
    StableHlo.after (List.flatten [hostOps1]) Wv (Proc.devRef .tc r) = Wv (Proc.devRef .tc r) :=
  StableHlo.after_of_writes_sub (W := [main_v2, main_v3, main_cst, main_v4, main_v5, main_v6, main_cst_0, main_v7, main_v8]) _ Wv (by
    simp only [hostOps1, List.flatten_cons, List.flatten_nil, List.append_nil, List.Forall, StableHlo.nullary_writes, StableHlo.unary_writes,
      StableHlo.binary_writes, StableHlo.reshape_writes, List.map_cons, List.map_nil, List.toFinset_cons, List.toFinset_nil]
    repeat' apply And.intro
    all_goals (intro b hb; rw [Finset.mem_singleton] at hb; subst hb; simp only [Finset.mem_insert, Finset.mem_singleton, true_or, or_true])) hr

/-- The buffers of the later lines held at a valuation, one by one. -/
theorem held_tail (c : Dev nD) (Wv : Valuation τ sig (Elt F)) :
    (StableHlo.held (c.tc : Thread nD τ) tailSet Wv : sProp 𝕄)
      = iprop((((c.tc : Thread nD τ).loc main_v1_0) ↦{fullShare} Wv (Proc.devRef .tc main_v1_0))
          ∗ (((c.tc : Thread nD τ).loc main_v1_1) ↦{fullShare} Wv (Proc.devRef .tc main_v1_1))
          ∗ (((c.tc : Thread nD τ).loc main_v2) ↦{fullShare} Wv (Proc.devRef .tc main_v2))
          ∗ (((c.tc : Thread nD τ).loc main_v3) ↦{fullShare} Wv (Proc.devRef .tc main_v3))
          ∗ (((c.tc : Thread nD τ).loc main_cst) ↦{fullShare} Wv (Proc.devRef .tc main_cst))
          ∗ (((c.tc : Thread nD τ).loc main_v4) ↦{fullShare} Wv (Proc.devRef .tc main_v4))
          ∗ (((c.tc : Thread nD τ).loc main_v5) ↦{fullShare} Wv (Proc.devRef .tc main_v5))
          ∗ (((c.tc : Thread nD τ).loc main_v6) ↦{fullShare} Wv (Proc.devRef .tc main_v6))
          ∗ (((c.tc : Thread nD τ).loc main_cst_0) ↦{fullShare} Wv (Proc.devRef .tc main_cst_0))
          ∗ (((c.tc : Thread nD τ).loc main_v7) ↦{fullShare} Wv (Proc.devRef .tc main_v7))
          ∗ (((c.tc : Thread nD τ).loc main_v8) ↦{fullShare} Wv (Proc.devRef .tc main_v8))) := by
  unfold StableHlo.held
  rw [bigSep_eq_bigSepL_of_eq (tailList.map (Proc.devRef (τ := τ) .tc)) rfl
    (List.Nodup.map (Proc.devRef_injective _) (by decide))]
  rfl

/-- Every later line touches only those buffers. -/
theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl | rfl | rfl | rfl | rfl | rfl | rfl | rfl
  all_goals
    intro b hb
    simp only [StableHlo.nullary_bufs, StableHlo.unary_bufs, StableHlo.binary_bufs, StableHlo.reshape, Finset.mem_insert, Finset.mem_singleton] at hb
    rcases hb with rfl | rfl | rfl <;> exact List.mem_toFinset.mpr (List.mem_map.mpr ⟨_, by decide, rfl⟩)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The later lines' buffers after the lines: the two result arrays as the region left them, the lines' own buffers at
    the lines' values. -/
theorem held_after (c : Dev nD) :
    (StableHlo.held (c.tc : Thread nD τ) tailSet (StableHlo.after (List.flatten [hostOps1]) (W1 m c)) : sProp 𝕄)
      = iprop((((c.tc : Thread nD τ).loc main_v1_0) ↦{fullShare} (dats m 0 c).arrAt 6 cfg0.N)
          ∗ (((c.tc : Thread nD τ).loc main_v1_1) ↦{fullShare} (dats m 0 c).arrAt 7 cfg0.N)
          ∗ (((c.tc : Thread nD τ).loc main_v2) ↦{fullShare} StableHlo.after (List.flatten [hostOps1]) (W1 m c) (Proc.devRef .tc main_v2))
          ∗ (((c.tc : Thread nD τ).loc main_v3) ↦{fullShare} StableHlo.after (List.flatten [hostOps1]) (W1 m c) (Proc.devRef .tc main_v3))
          ∗ (((c.tc : Thread nD τ).loc main_cst) ↦{fullShare} StableHlo.after (List.flatten [hostOps1]) (W1 m c) (Proc.devRef .tc main_cst))
          ∗ (((c.tc : Thread nD τ).loc main_v4) ↦{fullShare} StableHlo.after (List.flatten [hostOps1]) (W1 m c) (Proc.devRef .tc main_v4))
          ∗ (((c.tc : Thread nD τ).loc main_v5) ↦{fullShare} StableHlo.after (List.flatten [hostOps1]) (W1 m c) (Proc.devRef .tc main_v5))
          ∗ (((c.tc : Thread nD τ).loc main_v6) ↦{fullShare} StableHlo.after (List.flatten [hostOps1]) (W1 m c) (Proc.devRef .tc main_v6))
          ∗ (((c.tc : Thread nD τ).loc main_cst_0) ↦{fullShare} StableHlo.after (List.flatten [hostOps1]) (W1 m c) (Proc.devRef .tc main_cst_0))
          ∗ (((c.tc : Thread nD τ).loc main_v7) ↦{fullShare} StableHlo.after (List.flatten [hostOps1]) (W1 m c) (Proc.devRef .tc main_v7))
          ∗ (((c.tc : Thread nD τ).loc main_v8) ↦{fullShare} StableHlo.after (List.flatten [hostOps1]) (W1 m c) (Proc.devRef .tc main_v8))) := by
  rw [held_tail, hostOps1_keeps main_v1_0 (by decide), hostOps1_keeps main_v1_1 (by decide), W1_v1_0, W1_v1_1]

/-- The later lines, run from the region's exit: they read the two result arrays, held whole, and write their own buffers;
    the six half-held inputs and the mask stand by. -/
theorem htail (𝒱₀ : Variants) (c : Dev nD) (Q' : PUnit → sProp 𝕄) :
    iprop((iprop((dats m 0 c).arrays ((dats m 0 c).arrAt · cfg0.N)
              ∗ Pipeline.unscopedRest (Ix := Unit) (Name := ℕ) (U := UR sig nD τ) (Lvl := ℕ) spec0 c
                  (fun b => StableHlo.after (List.flatten [hostOps1]) (W1 m c) (Proc.devRef .tc b))) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (fun q => (cfgs q).toPCfg (Val := Elt F)) defs₀) (Variants.lift 𝒱₀) (c.tc : Thread nD τ) none) Set.univ
          (Pipeline.chain [StableHlo.seq hostOps1]) Q' := by
  rw [arrays_chain, unscopedRest0_eq, unscopedRest0_eq]
  rw [hostOps1_keeps main_arg2 (by decide), W1_of_ne m c main_arg2 (by decide) (by decide)]
  have e : (Pipeline.chain [StableHlo.seq hostOps1] : Prog (TpuEff nD τ sig (Elt F) (Pipeline.Sig Λ₀ (Fin 1) fun p => ((cfgs p).toPCfg (Val := Elt F)).Adm) .tc) PUnit)
      = Pipeline.chain (([hostOps1] : List (List (HloOp τ sig (Elt F)))).map StableHlo.seq ++ []) := rfl
  rw [e]
  iintro ⟨Hk, Hb, ⟨A0, A1, B0, B1, C0, C1, D0, D1⟩, R0, R1, R2, R3, R4, R5, R6, R7, R8, R9⟩
  iapply (Pipeline.wp_seqs_then (fun q => (cfgs q).toPCfg (Val := Elt F)) defs₀ 𝒱₀ c tailSet [] [hostOps1] tail_sub tail_fresh (W1 m c)) $$ [Hb D0 D1 R1 R2 R3 R4 R5 R6 R7 R8 R9]
  · isplitl [Hb]; · iexact Hb
    rw [held_tail, W1_v1_0, W1_v1_1, W1_of_ne m c main_v2 (by decide) (by decide), W1_of_ne m c main_v3 (by decide) (by decide),
      W1_of_ne m c main_cst (by decide) (by decide), W1_of_ne m c main_v4 (by decide) (by decide), W1_of_ne m c main_v5 (by decide) (by decide),
      W1_of_ne m c main_v6 (by decide) (by decide), W1_of_ne m c main_cst_0 (by decide) (by decide), W1_of_ne m c main_v7 (by decide) (by decide),
      W1_of_ne m c main_v8 (by decide) (by decide)]
    isplitl [D0]; · iexact D0
    isplitl [D1]; · iexact D1
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  rw [Pipeline.chain_nil, wp_pure, held_after]
  iintro ⟨Hb, D0, D1, R1, R2, R3, R4, R5, R6, R7, R8, R9⟩
  imodintro
  iapply Hk
  isplitl [A0 A1 B0 B1 C0 C1 D0 D1]
  · isplitl [A0]; · iexact A0
    isplitl [A1]; · iexact A1
    isplitl [B0]; · iexact B0
    isplitl [B1]; · iexact B1
    isplitl [C0]; · iexact C0
    isplitl [C1]; · iexact C1
    isplitl [D0]; · iexact D0
    iexact D1
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact R9

/-! ## The run -/

/-- The scalar the program ends with on core `c`: the later lines' value of the two result arrays as the region leaves
    them. -/
def result (c : Dev nD) : Buf (Elt F) ((c.tc : Thread nD τ).loc main_v8) :=
  StableHlo.after (List.flatten [hostOps1]) (W1 m c) (Proc.devRef .tc main_v8)

/-- The one host line before the region writes none of the three arguments. -/
theorem V0_arg (c : Dev nD) (r : Ref sig .tc) (hr : r ∉ ([main_v0] : List (Ref sig .tc))) :
    V0 m c (Proc.devRef .tc r) = m ((c.tc : Thread nD τ).loc r) :=
  StableHlo.after_of_writes_sub (W := [main_v0]) _ _ (by
    simp only [hostOps0, List.flatten_cons, List.flatten_nil, List.append_nil, List.Forall, StableHlo.unary_writes,
      List.map_cons, List.map_nil, List.toFinset_cons, List.toFinset_nil]
    intro b hb; rw [Finset.mem_singleton] at hb; subst hb; simp only [Finset.mem_insert, Finset.mem_singleton, true_or, or_true]) hr

set_option backward.isDefEq.respectTransparency.types false in
/-- Every weakly fair execution of @main terminates, faulting nowhere, with the result buffer at `result` and the three
    argument arrays as launched. -/
theorem run_main : θ_run (defs (F := F)) (onTc (τ := τ) (main (F := F))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  classical
  have hinj : Function.Injective (Pipeline.cellOf (nD := nD) (τ := τ) (Pipeline.pin (fun q => (cfgs q).toPCfg (Val := Elt F)) (fun q => (cfgs q).toPCfg_adm))) :=
    cellOf_inj
  exact Pipeline.θ_run_region_pf_tail (fun q => (cfgs q).toPCfg (Val := Elt F)) (fun q => (cfgs q).toPCfg_adm) (dats m) () hinj 0
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp))
    (u₀ := initOf (Pipeline.cells (Pipeline.pin (fun q => (cfgs q).toPCfg (Val := Elt F)) (fun q => (cfgs q).toPCfg_adm)) hinj)
      (Pipeline.launchToks (Pipeline.pin (fun q => (cfgs q).toPCfg (Val := Elt F)) (fun q => (cfgs q).toPCfg_adm)) hinj))
    (hu₀ := by
      iintro Hu; imodintro
      isplitl [Hu]; · iapply (show (ownU _ : sProp 𝕄) ⊢ BI.own (emb₁ (initOf (Pipeline.cells _ hinj) (Pipeline.launchToks _ hinj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c
      (fun b => StableHlo.after (List.flatten [hostOps1]) (W1 m c) (Proc.devRef .tc b)))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m Variants.none)
    (QY := fun c s => ∀ b ∈ Pipeline.restRefs sig spec0, s.mem ((c.tc : Thread nD τ).loc b)
      = StableHlo.after (List.flatten [hostOps1]) (W1 m c) (Proc.devRef .tc b))
    (hY := fun c s' => by
      iintro ⟨-, HU, HSI⟩
      unfold Pipeline.unscopedRest
      imodintro
      iapply (pointsTo_read_all (Pipeline.restRefs sig spec0) (fun b => (c.tc : Thread nD τ).loc b)
        (fun b => StableHlo.after (List.flatten [hostOps1]) (W1 m c) (Proc.devRef .tc b)) s')
      isplitl [HU] <;> iassumption)
    (hQ := fun s h c => ⟨(h c).2.2 main_v8 (Pipeline.mem_restRefs_of main_v8 (by decide) (by decide)),
      ((h c).1 0).trans (((dats m 0 c).arrAt_in 0 rfl _).trans ((A_eq m c 0).trans (V0_arg m c main_arg0 (by decide)))),
      ((h c).1 2).trans (((dats m 0 c).arrAt_in 2 rfl _).trans ((A_eq m c 2).trans (V0_arg m c main_arg1 (by decide)))),
      ((h c).2.2 main_arg2 (Pipeline.mem_restRefs_of main_arg2 (by decide) (by decide))).trans
        ((hostOps1_keeps main_arg2 (by decide) _).trans ((W1_of_ne m c main_arg2 (by decide) (by decide)).trans (V0_arg m c main_arg2 (by decide))))⟩)

end Cert.Kernel.TileLaunch

end
-- ==== Proof.TileFrame.lean ====
/-
  The run of the pairwise-distance kernel's program, for any float instance.

  @main is: the mask reshaped to [32, 1, 1024]; the pipelined region over the 32 x 4 grid of (cloud, query tile); then the
  host lines that take entry [b, q, 0, 0] of each of the two result arrays, add the 128 entries up and divide.
  Windows 0 and 1 read the first point array (the tile's 256 rows; all 1024 rows), windows 2 and 3 the second, windows 4
  and 5 the reshaped mask: each pair shares ONE array, so each window of a pair holds half of the array's share while
  the region runs. Windows 6 and 7 are the two results, one (1,1,1,128) block per grid point, every block written back.
  The body reads its six input blocks whole and stores one value, broadcast, into each output block.
-/
import proofs.«155562_j5179730559713_2_alg».proof.Proof.Gen.KernelIdeal.Launch
import proofs.«155562_j5179730559713_2_alg».proof.Proof.Gen.KernelIdeal.Skeleton
import proofs.«155562_j5179730559713_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.TileFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The device's buffers when the region is entered: the launch contents after the one host line before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the later lines, entered at the contents after the earlier line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the two output blocks -/

abbrev rOut : Rect S1x1x1x128 := Rect.unit (s := S1x1x1x128) ![0, 0, 0, 0] S1x1x1x128.size inb_S1x1x1x128_S1x1x1x128_0_0_0_0
abbrev rQ : Rect S1x256x3 := Rect.unit (s := S1x256x3) ![0, 0, 0] S1x256x3.size inb_S1x256x3_S1x256x3_0_0_0
abbrev rK : Rect S1x1024x3 := Rect.unit (s := S1x1024x3) ![0, 0, 0] S1x1024x3.size inb_S1x1024x3_S1x1024x3_0_0_0
abbrev rMQ : Rect S1x1x256 := Rect.unit (s := S1x1x256) ![0, 0, 0] S1x1x256.size inb_S1x1x256_S1x1x256_0_0_0
abbrev rMK : Rect S1x1x1024 := Rect.unit (s := S1x1x1024) ![0, 0, 0] S1x1x1024.size inb_S1x1x1024_S1x1x1024_0_0_0

/-- The value stored into the first result's block, from the six input blocks. -/
def numPay (x0 : Vec F S1x256x3 .f32) (x1 : Vec F S1x1024x3 .f32) (x2 : Vec F S1x256x3 .f32) (x3 : Vec F S1x1024x3 .f32)
    (x4 : Vec F S1x1x256 .i32) (x5 : Vec F S1x1x1024 .i32) : Vec F S1x1x1x128 .f32 :=
  k0_pay1 (k0_pay11 (k0_pay5 x2) (k0_pay6 x3) (k0_pay10 x2 x3)) (k0_pay12 (k0_pay7 x4) (k0_pay8 x5))
    (k0_pay13 (k0_pay3 x0) (k0_pay4 x1) (k0_pay5 x2) (k0_pay6 x3) (k0_pay9 x0 x1) (k0_pay10 x2 x3)) (Scalar.ofBits .f32 0x322BCC77#32)

/-- The value stored into the second result's block, from the two mask blocks. -/
def denPay (x4 : Vec F S1x1x256 .i32) (x5 : Vec F S1x1x1024 .i32) : Vec F S1x1x1x128 .f32 :=
  k0_pay2 (k0_pay12 (k0_pay7 x4) (k0_pay8 x5))

/-- The first result's staging buffer after the body: its one store, which covers the block. -/
def out6 (x0 : Vec F S1x256x3 .f32) (x1 : Vec F S1x1024x3 .f32) (x2 : Vec F S1x256x3 .f32) (x3 : Vec F S1x1024x3 .f32)
    (x4 : Vec F S1x1x256 .i32) (x5 : Vec F S1x1x1024 .i32) : Vec F S1x1x1x128 .f32 :=
  View.canon [⟨rOut, numPay (View.ld x0 rQ) (View.ld x1 rK) (View.ld x2 rQ) (View.ld x3 rK) (View.ld x4 rMQ) (View.ld x5 rMK)⟩]

/-- The second result's staging buffer after the body. -/
def out7 (x4 : Vec F S1x1x256 .i32) (x5 : Vec F S1x1x1024 .i32) : Vec F S1x1x1x128 .f32 :=
  View.canon [⟨rOut, denPay (View.ld x4 rMQ) (View.ld x5 rMK)⟩]

theorem coverOut (p0 : Vec F S1x1x1x128 .f32) (y : S1x1x1x128.Idx) :
    ∃ pc ∈ ([⟨rOut, p0⟩] : List (View.Piece (Elt F) S1x1x1x128 .f32)), y ∈ pc.1.set :=
  View.cover_of_tiled [⟨rOut, p0⟩] S1x1x1x128.size (by rfl) y

/-! ## The body's triple -/

set_option maxHeartbeats 1000000 in
/-- The body on whole staging memrefs — the six inputs at read contents, the two outputs at anything — leaves the inputs as
    they were and each output at its one store. -/
theorem sound_kernel (c : Dev nD) (E : Set ℕ) (i : grid0.Coords)
    (a0 : Memref sig .tc .vmem S1x256x3 .f32) (h0 : a0.IsWhole) (a1 : Memref sig .tc .vmem S1x1024x3 .f32) (h1 : a1.IsWhole)
    (a2 : Memref sig .tc .vmem S1x256x3 .f32) (h2 : a2.IsWhole) (a3 : Memref sig .tc .vmem S1x1024x3 .f32) (h3 : a3.IsWhole)
    (a4 : Memref sig .tc .vmem S1x1x256 .i32) (h4 : a4.IsWhole) (a5 : Memref sig .tc .vmem S1x1x1024 .i32) (h5 : a5.IsWhole)
    (a6 : Memref sig .tc .vmem S1x1x1x128 .f32) (h6 : a6.IsWhole) (a7 : Memref sig .tc .vmem S1x1x1x128 .f32) (h7 : a7.IsWhole)
    (x0 : Vec F S1x256x3 .f32) (x1 : Vec F S1x1024x3 .f32) (x2 : Vec F S1x256x3 .f32) (x3 : Vec F S1x1024x3 .f32)
    (x4 : Vec F S1x1x256 .i32) (x5 : Vec F S1x1x1024 .i32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ (∃ d, owns (c : Thread nD τ) a6 fullShare d) ∗ (∃ d, owns (c : Thread nD τ) a7 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare (out6 x0 x1 x2 x3 x4 x5) ∗ owns (c : Thread nD τ) a7 fullShare (out7 x4 x5)) -∗ K ⟨⟩))
      ⊢ wp frame (wpE (defs₀ (F := F)) Variants.none c none) E (cc0__kernel i a0 h0 a1 h1 a2 h2 a3 h3 a4 h4 a5 h5 a6 h6 a7 h7) K := by
  simp only [cc0__kernel_eq_skeleton]; unfold cc0__kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverOut _)
  iexists _; isplitr
  swap; · iexact H7
  ipureintro
  exact View.read_writes_eq_canon _ _ _ (coverOut _)

/-! ## The pipeline's proof data -/

/-- The proof data of the pipeline on core `c`: the arrays as the region finds them; after the body at point `t` each input's
    buffer at its block and each output's at its one store over the input blocks; the invariant the scoped rest and the
    generator register, untouched; nothing owed; of each shared array the first window of the pair holds the left half
    of the share and the second the right half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
    | ⟨7, _⟩ => out7 (iblk m c 4 t) (iblk m c 5 t)
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = out6 (iblk m c 0 t) (iblk m c 1 t) (iblk m c 2 t) (iblk m c 3 t) (iblk m c 4 t) (iblk m c 5 t) := by dsimp only [dats]
theorem after7 (c : Dev nD) (t : Fin cfg0.N) : (dats m 0 c).after 7 t = out7 (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.TileFrame

end
-- ==== Proof.TileLaunch.lean ====
/-
  The launch of the pairwise-distance kernel's program, for any float instance: every execution of @main terminates with
  the three argument arrays unchanged and the scalar result at the host lines' value of the two result arrays the region
  leaves.

  Each pair of windows over one array holds that array's two half shares while the region runs: at entry each shared
  array's full share is split in two, and the arrays come back at the end as the windows held them. The two result
  arrays are held whole, so the host lines after the region read them and write their own buffers beside them.
-/
import proofs.«155562_j5179730559713_2_alg».proof.Proof.TileFrame

set_option maxRecDepth 16384

noncomputable section

namespace Cert.KernelIdeal.TileLaunch

open Cert.KernelIdeal Cert.KernelIdeal.Gen Cert.KernelIdeal.TileFrame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the windows' shares -/

/-- The windows' arrays are whole buffers, so the pipeline's arrays are whole points-tos, window `w`'s at its share. -/
theorem arrays_eq' (c : Dev nD) (Fn : (w : Fin cfg0.W) → Buf (Elt F) ((cfg0.win w).arr.view.loc (c.tc : Thread nD τ))) :
    ((dats m 0 c).arrays Fn : sProp 𝕄)
      = bigSep Finset.univ fun w : Fin 8 => (((c.tc : Thread nD τ).loc (Pipeline.arrRef spec0 w)) ↦{(dats m 0 c).share w} Fn w : sProp 𝕄) := by
  unfold Dat.arrays
  exact bigSep_congr fun w _ => by rw [(arr_whole0 w).set_eq_univ]

theorem share0 (c : Dev nD) : (dats m 0 c).share 0 = fullShare.left := rfl
theorem share1 (c : Dev nD) : (dats m 0 c).share 1 = fullShare.right := rfl
theorem share2 (c : Dev nD) : (dats m 0 c).share 2 = fullShare.left := rfl
theorem share3 (c : Dev nD) : (dats m 0 c).share 3 = fullShare.right := rfl
theorem share4 (c : Dev nD) : (dats m 0 c).share 4 = fullShare.left := rfl
theorem share5 (c : Dev nD) : (dats m 0 c).share 5 = fullShare.right := rfl
theorem share6 (c : Dev nD) : (dats m 0 c).share 6 = fullShare := rfl
theorem share7 (c : Dev nD) : (dats m 0 c).share 7 = fullShare := rfl

/-- The pipeline's arrays at contents `Fn`, window by window. -/
theorem arrays_chain (c : Dev nD) (Fn : (w : Fin cfg0.W) → Buf (Elt F) ((cfg0.win w).arr.view.loc (c.tc : Thread nD τ))) :
    ((dats m 0 c).arrays Fn : sProp 𝕄)
      = iprop((((c.tc : Thread nD τ).loc main_arg0) ↦{fullShare.left} Fn 0) ∗ (((c.tc : Thread nD τ).loc main_arg0) ↦{fullShare.right} Fn 1)
          ∗ (((c.tc : Thread nD τ).loc main_arg1) ↦{fullShare.left} Fn 2) ∗ (((c.tc : Thread nD τ).loc main_arg1) ↦{fullShare.right} Fn 3)
          ∗ (((c.tc : Thread nD τ).loc main_v0) ↦{fullShare.left} Fn 4) ∗ (((c.tc : Thread nD τ).loc main_v0) ↦{fullShare.right} Fn 5)
          ∗ (((c.tc : Thread nD τ).loc main_v1_0) ↦{fullShare} Fn 6) ∗ (((c.tc : Thread nD τ).loc main_v1_1) ↦{fullShare} Fn 7)) := by
  rw [arrays_eq', bigSep_W0, share0, share1, share2, share3, share4, share5, share6, share7]

/-- The distinct buffers behind the windows' arrays. -/
theorem arrRefs_eq : Finset.univ.image (Pipeline.arrRef spec0)
    = ([main_arg0, main_arg1, main_v0, main_v1_0, main_v1_1] : List (Ref sig .tc)).toFinset := by decide

/-- The five buffers behind the arrays, one by one. -/
theorem arrBufs_chain (c : Dev nD) (Vv : (b : Ref sig .tc) → Buf (Elt F) ((c.tc : Thread nD τ).loc b)) :
    (Pipeline.arrBufs spec0 c Vv : sProp 𝕄)
      = iprop((((c.tc : Thread nD τ).loc main_arg0) ↦{fullShare} Vv main_arg0) ∗ (((c.tc : Thread nD τ).loc main_arg1) ↦{fullShare} Vv main_arg1)
          ∗ (((c.tc : Thread nD τ).loc main_v0) ↦{fullShare} Vv main_v0) ∗ (((c.tc : Thread nD τ).loc main_v1_0) ↦{fullShare} Vv main_v1_0)
          ∗ (((c.tc : Thread nD τ).loc main_v1_1) ↦{fullShare} Vv main_v1_1)) :=
  bigSep_eq_bigSepL_of_eq [main_arg0, main_arg1, main_v0, main_v1_0, main_v1_1] arrRefs_eq (by decide) _

/-- ENTRY: the five buffers behind the arrays, each whole at the full share, are the eight windows' arrays: each of the
    three shared buffers' share is split in two halves, one per window of its pair. -/
theorem hsplit (c : Dev nD) :
    (Pipeline.arrBufs spec0 c (V m c) : sProp 𝕄) ⊢ (dats m 0 c).arrays ((dats m 0 c).arrAt · 0) := by
  rw [arrays_chain]
  rw [arrBufs_chain]
  refine (BIClass.sep_mono (pointsTo_share (PosShare.mem_left_op_right fullShare)).1
    (BIClass.sep_mono (pointsTo_share (PosShare.mem_left_op_right fullShare)).1
      (BIClass.sep_mono (pointsTo_share (PosShare.mem_left_op_right fullShare)).1 .rfl))).trans ?_
  iintro ⟨⟨A0, A1⟩, ⟨B0, B1⟩, ⟨C0, C1⟩, D0, D1⟩
  isplitl [A0]; · iexact A0
  isplitl [A1]; · iexact A1
  isplitl [B0]; · iexact B0
  isplitl [B1]; · iexact B1
  isplitl [C0]; · iexact C0
  isplitl [C1]; · iexact C1
  isplitl [D0]; · iexact D0
  iexact D1

/-! ## The host lines after the region -/

/-- The references the later lines read or write: the two result arrays and the lines' own buffers. -/
abbrev tailList : List (Ref sig .tc) :=
  [main_v1_0, main_v1_1, main_v2, main_v3, main_cst, main_v4, main_v5, main_v6, main_cst_0, main_v7, main_v8]
/-- The same as device buffers. -/
abbrev tailSet : Finset (DevRef τ sig) := (tailList.map (Proc.devRef (τ := τ) .tc)).toFinset

/-- The device's buffers when the region is left: the two result arrays as the region wrote them, every other buffer as
    the region found it. -/
def W1 (c : Dev nD) : Valuation τ sig (Elt F) := by
  classical
  exact Function.update (Function.update (V0 m c) (Proc.devRef .tc main_v1_0) ((dats m 0 c).arrAt 6 cfg0.N))
    (Proc.devRef .tc main_v1_1) ((dats m 0 c).arrAt 7 cfg0.N)

/-- The device's buffers after the later lines. -/
abbrev W2 (c : Dev nD) : Valuation τ sig (Elt F) := StableHlo.after (List.flatten [hostOps1]) (W1 m c)

theorem W1_v1_0 (c : Dev nD) : W1 m c (Proc.devRef .tc main_v1_0) = (dats m 0 c).arrAt 6 cfg0.N := by
  classical
  unfold W1
  rw [Function.update_of_ne (StableHlo.devRef_ne_of_ne (by decide)), Function.update_self]
theorem W1_v1_1 (c : Dev nD) : W1 m c (Proc.devRef .tc main_v1_1) = (dats m 0 c).arrAt 7 cfg0.N := by
  classical
  unfold W1
  rw [Function.update_self]
theorem W1_of_ne (c : Dev nD) (r : Ref sig .tc) (h0 : r ≠ main_v1_0) (h1 : r ≠ main_v1_1) :
    W1 m c (Proc.devRef .tc r) = V0 m c (Proc.devRef .tc r) := by
  classical
  unfold W1
  rw [Function.update_of_ne (StableHlo.devRef_ne_of_ne h1), Function.update_of_ne (StableHlo.devRef_ne_of_ne h0)]

/-- The later lines write neither result array. -/
theorem hostOps1_keeps (r : Ref sig .tc) (hr : r ∉ ([main_v2, main_v3, main_cst, main_v4, main_v5, main_v6, main_cst_0, main_v7, main_v8] : List (Ref sig .tc)))
    (Wv : Valuation τ sig (Elt F)) :
    StableHlo.after (List.flatten [hostOps1]) Wv (Proc.devRef .tc r) = Wv (Proc.devRef .tc r) :=
  StableHlo.after_of_writes_sub (W := [main_v2, main_v3, main_cst, main_v4, main_v5, main_v6, main_cst_0, main_v7, main_v8]) _ Wv (by
    simp only [hostOps1, List.flatten_cons, List.flatten_nil, List.append_nil, List.Forall, StableHlo.nullary_writes, StableHlo.unary_writes,
      StableHlo.binary_writes, StableHlo.reshape_writes, List.map_cons, List.map_nil, List.toFinset_cons, List.toFinset_nil]
    repeat' apply And.intro
    all_goals (intro b hb; rw [Finset.mem_singleton] at hb; subst hb; simp only [Finset.mem_insert, Finset.mem_singleton, true_or, or_true])) hr

/-- The buffers of the later lines held at a valuation, one by one. -/
theorem held_tail (c : Dev nD) (Wv : Valuation τ sig (Elt F)) :
    (StableHlo.held (c.tc : Thread nD τ) tailSet Wv : sProp 𝕄)
      = iprop((((c.tc : Thread nD τ).loc main_v1_0) ↦{fullShare} Wv (Proc.devRef .tc main_v1_0))
          ∗ (((c.tc : Thread nD τ).loc main_v1_1) ↦{fullShare} Wv (Proc.devRef .tc main_v1_1))
          ∗ (((c.tc : Thread nD τ).loc main_v2) ↦{fullShare} Wv (Proc.devRef .tc main_v2))
          ∗ (((c.tc : Thread nD τ).loc main_v3) ↦{fullShare} Wv (Proc.devRef .tc main_v3))
          ∗ (((c.tc : Thread nD τ).loc main_cst) ↦{fullShare} Wv (Proc.devRef .tc main_cst))
          ∗ (((c.tc : Thread nD τ).loc main_v4) ↦{fullShare} Wv (Proc.devRef .tc main_v4))
          ∗ (((c.tc : Thread nD τ).loc main_v5) ↦{fullShare} Wv (Proc.devRef .tc main_v5))
          ∗ (((c.tc : Thread nD τ).loc main_v6) ↦{fullShare} Wv (Proc.devRef .tc main_v6))
          ∗ (((c.tc : Thread nD τ).loc main_cst_0) ↦{fullShare} Wv (Proc.devRef .tc main_cst_0))
          ∗ (((c.tc : Thread nD τ).loc main_v7) ↦{fullShare} Wv (Proc.devRef .tc main_v7))
          ∗ (((c.tc : Thread nD τ).loc main_v8) ↦{fullShare} Wv (Proc.devRef .tc main_v8))) := by
  unfold StableHlo.held
  rw [bigSep_eq_bigSepL_of_eq (tailList.map (Proc.devRef (τ := τ) .tc)) rfl
    (List.Nodup.map (Proc.devRef_injective _) (by decide))]
  rfl

/-- Every later line touches only those buffers. -/
theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl | rfl | rfl | rfl | rfl | rfl | rfl | rfl
  all_goals
    intro b hb
    simp only [StableHlo.nullary_bufs, StableHlo.unary_bufs, StableHlo.binary_bufs, StableHlo.reshape, Finset.mem_insert, Finset.mem_singleton] at hb
    rcases hb with rfl | rfl | rfl <;> exact List.mem_toFinset.mpr (List.mem_map.mpr ⟨_, by decide, rfl⟩)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The later lines' buffers after the lines: the two result arrays as the region left them, the lines' own buffers at
    the lines' values. -/
theorem held_after (c : Dev nD) :
    (StableHlo.held (c.tc : Thread nD τ) tailSet (StableHlo.after (List.flatten [hostOps1]) (W1 m c)) : sProp 𝕄)
      = iprop((((c.tc : Thread nD τ).loc main_v1_0) ↦{fullShare} (dats m 0 c).arrAt 6 cfg0.N)
          ∗ (((c.tc : Thread nD τ).loc main_v1_1) ↦{fullShare} (dats m 0 c).arrAt 7 cfg0.N)
          ∗ (((c.tc : Thread nD τ).loc main_v2) ↦{fullShare} StableHlo.after (List.flatten [hostOps1]) (W1 m c) (Proc.devRef .tc main_v2))
          ∗ (((c.tc : Thread nD τ).loc main_v3) ↦{fullShare} StableHlo.after (List.flatten [hostOps1]) (W1 m c) (Proc.devRef .tc main_v3))
          ∗ (((c.tc : Thread nD τ).loc main_cst) ↦{fullShare} StableHlo.after (List.flatten [hostOps1]) (W1 m c) (Proc.devRef .tc main_cst))
          ∗ (((c.tc : Thread nD τ).loc main_v4) ↦{fullShare} StableHlo.after (List.flatten [hostOps1]) (W1 m c) (Proc.devRef .tc main_v4))
          ∗ (((c.tc : Thread nD τ).loc main_v5) ↦{fullShare} StableHlo.after (List.flatten [hostOps1]) (W1 m c) (Proc.devRef .tc main_v5))
          ∗ (((c.tc : Thread nD τ).loc main_v6) ↦{fullShare} StableHlo.after (List.flatten [hostOps1]) (W1 m c) (Proc.devRef .tc main_v6))
          ∗ (((c.tc : Thread nD τ).loc main_cst_0) ↦{fullShare} StableHlo.after (List.flatten [hostOps1]) (W1 m c) (Proc.devRef .tc main_cst_0))
          ∗ (((c.tc : Thread nD τ).loc main_v7) ↦{fullShare} StableHlo.after (List.flatten [hostOps1]) (W1 m c) (Proc.devRef .tc main_v7))
          ∗ (((c.tc : Thread nD τ).loc main_v8) ↦{fullShare} StableHlo.after (List.flatten [hostOps1]) (W1 m c) (Proc.devRef .tc main_v8))) := by
  rw [held_tail, hostOps1_keeps main_v1_0 (by decide), hostOps1_keeps main_v1_1 (by decide), W1_v1_0, W1_v1_1]

/-- The later lines, run from the region's exit: they read the two result arrays, held whole, and write their own buffers;
    the six half-held inputs and the mask stand by. -/
theorem htail (𝒱₀ : Variants) (c : Dev nD) (Q' : PUnit → sProp 𝕄) :
    iprop((iprop((dats m 0 c).arrays ((dats m 0 c).arrAt · cfg0.N)
              ∗ Pipeline.unscopedRest (Ix := Unit) (Name := ℕ) (U := UR sig nD τ) (Lvl := ℕ) spec0 c
                  (fun b => StableHlo.after (List.flatten [hostOps1]) (W1 m c) (Proc.devRef .tc b))) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (fun q => (cfgs q).toPCfg (Val := Elt F)) defs₀) (Variants.lift 𝒱₀) (c.tc : Thread nD τ) none) Set.univ
          (Pipeline.chain [StableHlo.seq hostOps1]) Q' := by
  rw [arrays_chain, unscopedRest0_eq, unscopedRest0_eq]
  rw [hostOps1_keeps main_arg2 (by decide), W1_of_ne m c main_arg2 (by decide) (by decide)]
  have e : (Pipeline.chain [StableHlo.seq hostOps1] : Prog (TpuEff nD τ sig (Elt F) (Pipeline.Sig Λ₀ (Fin 1) fun p => ((cfgs p).toPCfg (Val := Elt F)).Adm) .tc) PUnit)
      = Pipeline.chain (([hostOps1] : List (List (HloOp τ sig (Elt F)))).map StableHlo.seq ++ []) := rfl
  rw [e]
  iintro ⟨Hk, Hb, ⟨A0, A1, B0, B1, C0, C1, D0, D1⟩, R0, R1, R2, R3, R4, R5, R6, R7, R8, R9⟩
  iapply (Pipeline.wp_seqs_then (fun q => (cfgs q).toPCfg (Val := Elt F)) defs₀ 𝒱₀ c tailSet [] [hostOps1] tail_sub tail_fresh (W1 m c)) $$ [Hb D0 D1 R1 R2 R3 R4 R5 R6 R7 R8 R9]
  · isplitl [Hb]; · iexact Hb
    rw [held_tail, W1_v1_0, W1_v1_1, W1_of_ne m c main_v2 (by decide) (by decide), W1_of_ne m c main_v3 (by decide) (by decide),
      W1_of_ne m c main_cst (by decide) (by decide), W1_of_ne m c main_v4 (by decide) (by decide), W1_of_ne m c main_v5 (by decide) (by decide),
      W1_of_ne m c main_v6 (by decide) (by decide), W1_of_ne m c main_cst_0 (by decide) (by decide), W1_of_ne m c main_v7 (by decide) (by decide),
      W1_of_ne m c main_v8 (by decide) (by decide)]
    isplitl [D0]; · iexact D0
    isplitl [D1]; · iexact D1
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  rw [Pipeline.chain_nil, wp_pure, held_after]
  iintro ⟨Hb, D0, D1, R1, R2, R3, R4, R5, R6, R7, R8, R9⟩
  imodintro
  iapply Hk
  isplitl [A0 A1 B0 B1 C0 C1 D0 D1]
  · isplitl [A0]; · iexact A0
    isplitl [A1]; · iexact A1
    isplitl [B0]; · iexact B0
    isplitl [B1]; · iexact B1
    isplitl [C0]; · iexact C0
    isplitl [C1]; · iexact C1
    isplitl [D0]; · iexact D0
    iexact D1
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact R9

/-! ## The run -/

/-- The scalar the program ends with on core `c`: the later lines' value of the two result arrays as the region leaves
    them. -/
def result (c : Dev nD) : Buf (Elt F) ((c.tc : Thread nD τ).loc main_v8) :=
  StableHlo.after (List.flatten [hostOps1]) (W1 m c) (Proc.devRef .tc main_v8)

/-- The one host line before the region writes none of the three arguments. -/
theorem V0_arg (c : Dev nD) (r : Ref sig .tc) (hr : r ∉ ([main_v0] : List (Ref sig .tc))) :
    V0 m c (Proc.devRef .tc r) = m ((c.tc : Thread nD τ).loc r) :=
  StableHlo.after_of_writes_sub (W := [main_v0]) _ _ (by
    simp only [hostOps0, List.flatten_cons, List.flatten_nil, List.append_nil, List.Forall, StableHlo.unary_writes,
      List.map_cons, List.map_nil, List.toFinset_cons, List.toFinset_nil]
    intro b hb; rw [Finset.mem_singleton] at hb; subst hb; simp only [Finset.mem_insert, Finset.mem_singleton, true_or, or_true]) hr

set_option backward.isDefEq.respectTransparency.types false in
/-- Every weakly fair execution of @main terminates, faulting nowhere, with the result buffer at `result` and the three
    argument arrays as launched. -/
theorem run_main : θ_run (defs (F := F)) (onTc (τ := τ) (main (F := F))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  classical
  have hinj : Function.Injective (Pipeline.cellOf (nD := nD) (τ := τ) (Pipeline.pin (fun q => (cfgs q).toPCfg (Val := Elt F)) (fun q => (cfgs q).toPCfg_adm))) :=
    cellOf_inj
  exact Pipeline.θ_run_region_pf_tail (fun q => (cfgs q).toPCfg (Val := Elt F)) (fun q => (cfgs q).toPCfg_adm) (dats m) () hinj 0
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp))
    (u₀ := initOf (Pipeline.cells (Pipeline.pin (fun q => (cfgs q).toPCfg (Val := Elt F)) (fun q => (cfgs q).toPCfg_adm)) hinj)
      (Pipeline.launchToks (Pipeline.pin (fun q => (cfgs q).toPCfg (Val := Elt F)) (fun q => (cfgs q).toPCfg_adm)) hinj))
    (hu₀ := by
      iintro Hu; imodintro
      isplitl [Hu]; · iapply (show (ownU _ : sProp 𝕄) ⊢ BI.own (emb₁ (initOf (Pipeline.cells _ hinj) (Pipeline.launchToks _ hinj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c
      (fun b => StableHlo.after (List.flatten [hostOps1]) (W1 m c) (Proc.devRef .tc b)))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m Variants.none)
    (QY := fun c s => ∀ b ∈ Pipeline.restRefs sig spec0, s.mem ((c.tc : Thread nD τ).loc b)
      = StableHlo.after (List.flatten [hostOps1]) (W1 m c) (Proc.devRef .tc b))
    (hY := fun c s' => by
      iintro ⟨-, HU, HSI⟩
      unfold Pipeline.unscopedRest
      imodintro
      iapply (pointsTo_read_all (Pipeline.restRefs sig spec0) (fun b => (c.tc : Thread nD τ).loc b)
        (fun b => StableHlo.after (List.flatten [hostOps1]) (W1 m c) (Proc.devRef .tc b)) s')
      isplitl [HU] <;> iassumption)
    (hQ := fun s h c => ⟨(h c).2.2 main_v8 (Pipeline.mem_restRefs_of main_v8 (by decide) (by decide)),
      ((h c).1 0).trans (((dats m 0 c).arrAt_in 0 rfl _).trans ((A_eq m c 0).trans (V0_arg m c main_arg0 (by decide)))),
      ((h c).1 2).trans (((dats m 0 c).arrAt_in 2 rfl _).trans ((A_eq m c 2).trans (V0_arg m c main_arg1 (by decide)))),
      ((h c).2.2 main_arg2 (Pipeline.mem_restRefs_of main_arg2 (by decide) (by decide))).trans
        ((hostOps1_keeps main_arg2 (by decide) _).trans ((W1_of_ne m c main_arg2 (by decide) (by decide)).trans (V0_arg m c main_arg2 (by decide))))⟩)

end Cert.KernelIdeal.TileLaunch

end
-- ==== Proof.PairLoss.lean ====
/-
  The masked relative difference of pairwise distances, as ONE function of the three arrays over the extended reals.

  For a batch b and points i, j: sq X b i j is the squared Euclidean distance of rows i and j of X (three coordinates),
  dist its square root (of the larger of sq and 0), wt the product of the two mask entries read as integers, rel the
  absolute difference of the two distances over the second distance plus a small constant, loss = rel * wt.
  The result is the sum of loss over all (b, i, j) divided by the sum of wt over all (b, i, j).
-/
import Idealize.ShloMosaic.PureOps.Ideal
import Idealize.ShloMosaic.Lib.ValueIdx

noncomputable section

open scoped BigOperators

namespace Cert.PairLoss

open Idealize.ShloMosaic Idealize.ShloMosaic.ValueIdx

/-- A batch of 32 clouds of 1024 points in three coordinates. -/
abbrev Pts : Type := (⟨3, ![32, 1024, 3]⟩ : Shape).Idx → EReal
/-- One 32-bit mask word per point. -/
abbrev Msk : Type := (⟨2, ![32, 1024]⟩ : Shape).Idx → BitVec 32

/-- The constant added to the denominator (the same binary word in both programs; never evaluated). -/
def eps : EReal := Ideal.ofBits .f32 0x322BCC77#32

/-- The squared distance of points `i` and `j` of cloud `b`: the sum over the three coordinates of the squared difference. -/
def sq (X : Pts) (b : Fin 32) (i j : Fin 1024) : EReal :=
  ∑ d : Fin 3, (X (ix3 b i d) - X (ix3 b j d)) * (X (ix3 b i d) - X (ix3 b j d))

/-- Their distance: the square root of the squared distance, taken of `max sq 0`. -/
def dist (X : Pts) (b : Fin 32) (i j : Fin 1024) : EReal := Ideal.sqrt (max (sq X b i j) 0)

/-- A mask word read as a signed integer. -/
def mval (M : Msk) (b : Fin 32) (i : Fin 1024) : EReal := (((M (ix2 b i)).toInt : ℝ) : EReal)

/-- The weight of the pair: the product of the two points' mask values. -/
def wt (M : Msk) (b : Fin 32) (i j : Fin 1024) : EReal := mval M b i * mval M b j

/-- The relative difference of the two clouds' distances for the pair. -/
def rel (P T : Pts) (b : Fin 32) (i j : Fin 1024) : EReal :=
  Ideal.div (max (dist P b i j - dist T b i j) (-(dist P b i j - dist T b i j))) (dist T b i j + eps)

/-- The pair's weighted loss. -/
def loss (P T : Pts) (M : Msk) (b : Fin 32) (i j : Fin 1024) : EReal := rel P T b i j * wt M b i j

/-- The loss: total weighted relative difference over total weight. -/
def total (P T : Pts) (M : Msk) : EReal :=
  Ideal.div (∑ b : Fin 32, ∑ i : Fin 1024, ∑ j : Fin 1024, loss P T M b i j) (∑ b : Fin 32, ∑ i : Fin 1024, ∑ j : Fin 1024, wt M b i j)

/-- Row `r` of query tile `q` (256 rows to a tile) is point `256 q + r`. -/
def row (q : Fin 4) (r : Fin 256) : Fin 1024 := ⟨256 * q.val + r.val, by omega⟩

/-- The tile's share of the numerator: the loss summed over the tile's 256 rows and all 1024 columns, columns first. -/
def tileNum (P T : Pts) (M : Msk) (b : Fin 32) (q : Fin 4) : EReal :=
  ∑ r : Fin 256, ∑ j : Fin 1024, loss P T M b (row q r) j

/-- The tile's share of the denominator. -/
def tileDen (M : Msk) (b : Fin 32) (q : Fin 4) : EReal :=
  ∑ r : Fin 256, ∑ j : Fin 1024, wt M b (row q r) j

/-- Summing the tiles' shares gives the whole sums: every point is row `r` of exactly one tile `q`. -/
theorem sum_tiles (f : Fin 32 → Fin 1024 → EReal) :
    (∑ b : Fin 32, ∑ q : Fin 4, ∑ r : Fin 256, f b (row q r)) = ∑ b : Fin 32, ∑ i : Fin 1024, f b i := by
  refine Finset.sum_congr rfl fun b _ => ?_
  rw [← Finset.sum_product']
  refine Finset.sum_bij' (fun p _ => row p.1 p.2) (fun i _ => (⟨i.val / 256, by omega⟩, ⟨i.val % 256, by omega⟩))
    (fun _ _ => Finset.mem_univ _) (fun _ _ => Finset.mem_univ _) ?_ ?_ (fun _ _ => rfl)
  · rintro ⟨q, r⟩ _
    simp only [row, Prod.mk.injEq]
    exact ⟨Fin.ext (by simp only []; omega), Fin.ext (by simp only []; omega)⟩
  · intro i _
    exact Fin.ext (by simp only [row]; omega)

/-- The loss from the tiles' shares. -/
theorem total_eq_tiles (P T : Pts) (M : Msk) :
    total P T M = Ideal.div (∑ b : Fin 32, ∑ q : Fin 4, tileNum P T M b q) (∑ b : Fin 32, ∑ q : Fin 4, tileDen M b q) := by
  unfold total tileNum tileDen
  rw [sum_tiles (fun b i => ∑ j : Fin 1024, loss P T M b i j), sum_tiles (fun b i => ∑ j : Fin 1024, wt M b i j)]

end Cert.PairLoss

end
-- ==== Proof.TileValue.lean ====
/-
  One tile of the pairwise-distance loss, read off the kernel body's arithmetic at the extended reals.

  For the six vectors a grid point loads (the 256 query rows and all 1024 points of each cloud, the two mask slices),
  the block the body writes as its numerator share is, at every lane, the tile's share of the loss
  (the sum over the tile's 256 rows and all 1024 columns of the relative distance difference times the pair's weight), and
  the block it writes as its denominator share is the tile's share of the total weight.

  The argument: every layout chain (a column cut out of a [n, 3] matrix, flattened, set upright or laid flat, and
  spread over the 256 x 1024 grid) reads, at (r, j), one entry of the matrix; the elementwise arithmetic then is the
  specification's, coordinate by coordinate; and the two one-axis sums (over columns, then over rows) are the double sum.
-/
import proofs.«155562_j5179730559713_2_alg».proof.Proof.Gen.KernelIdeal.Skeleton
import proofs.«155562_j5179730559713_2_alg».proof.Proof.PairLoss
import Idealize.ShloMosaic.Lib.ValueIdx
import Idealize.ShloMosaic.Lib.ValueLayout
import Idealize.ShloMosaic.PureOps.Ideal.Laws

noncomputable section

open scoped BigOperators

namespace Cert.KernelIdeal.TileValue

open Cert.KernelIdeal Cert.KernelIdeal.Gen Idealize.ShloMosaic Idealize.ShloMosaic.ValueIdx

/-! ## Column and row layout operations read at an index -/

section Layout
variable {α : Type}

/-- An [a] vector set upright as [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column flattened to [a] reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A [1, 1, a] array flattened to [a] reads, at i, the array at (0, 0, i). -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.add_zero, Nat.zero_add])

/-- An [a, 1] column spread over [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column d of a [256, 3] matrix, flattened, set upright and spread over the grid, reads at (r, j) the matrix at (r, d). -/
theorem col_chain (o : Nat) (X : (⟨2, ![256, 3]⟩ : Shape).Idx → α) (h1 : S256x3.Slices ![0, o] S256x1)
    (h2 : S256x1.ShapeCasts S256) (h3 : S256.ShapeCasts S256x1) (h4 : S256x1.Broadcasts S256x1024)
    (r : Fin 256) (j : Fin 1024) (d : Fin 3) (hd : d.val = o) :
    broadcastTo S256x1024 (shapeCast S256x1 (shapeCast S256 (extractStridedSlice S256x1 ![0, o] X h1) h2) h3) h4 (ix2 r j)
      = X (ix2 r d) :=
  (broadcastTo_a1_ab_apply _ h4 r j).trans ((shapeCast_a_a1_apply _ h3 r 0).trans ((shapeCast_a1_a_apply _ h2 r).trans
    (slice2_axis1_apply o X h1 r (0 : Fin 1) d (by rw [hd]; rfl))))

/-- Column d of a [1024, 3] matrix, flattened, laid flat and spread over the grid, reads at (r, j) the matrix at (j, d). -/
theorem row_chain (o : Nat) (X : (⟨2, ![1024, 3]⟩ : Shape).Idx → α) (h1 : S1024x3.Slices ![0, o] S1024x1)
    (h2 : S1024x1.ShapeCasts S1024) (h3 : S1024.ShapeCasts S1x1024) (h4 : S1x1024.Broadcasts S256x1024)
    (r : Fin 256) (j : Fin 1024) (d : Fin 3) (hd : d.val = o) :
    broadcastTo S256x1024 (shapeCast S1x1024 (shapeCast S1024 (extractStridedSlice S1024x1 ![0, o] X h1) h2) h3) h4 (ix2 r j)
      = X (ix2 j d) :=
  (broadcastTo_1b_ab_apply _ h4 r j).trans ((shapeCast_a_1a_apply _ h3 0 j).trans ((shapeCast_a1_a_apply _ h2 j).trans
    (slice2_axis1_apply o X h1 j (0 : Fin 1) d (by rw [hd]; rfl))))

end Layout

/-! ## The payloads at an index -/

/-- One coordinate's step of a squared distance: the running sum plus the squared difference of the two entries. -/
theorem sqstep (acc A B : FVec Ideal S256x1024 .f32) (i : S256x1024.Idx) (c a b : EReal)
    (hacc : acc i = c) (hA : A i = a) (hB : B i = b) :
    addf acc (mulf (subf A B) (subf A B)) i = c + (a - b) * (a - b) := by
  show acc i + (A i - B i) * (A i - B i) = _
  rw [hacc, hA, hB]

/-- The query rows without their leading unit axis. -/
theorem pay3_apply (x : Vec Ideal S1x256x3 .f32) (r : Fin 256) (d : Fin 3) :
    k0_pay3 (F := Ideal) x (ix2 r d) = x (ix3 (0 : Fin 1) r d) :=
  shapeCast_1ab_ab_apply x _ r d
/-- All points without their leading unit axis. -/
theorem pay4_apply (x : Vec Ideal S1x1024x3 .f32) (j : Fin 1024) (d : Fin 3) :
    k0_pay4 (F := Ideal) x (ix2 j d) = x (ix3 (0 : Fin 1) j d) :=
  shapeCast_1ab_ab_apply x _ j d
theorem pay5_apply (x : Vec Ideal S1x256x3 .f32) (r : Fin 256) (d : Fin 3) :
    k0_pay5 (F := Ideal) x (ix2 r d) = x (ix3 (0 : Fin 1) r d) :=
  shapeCast_1ab_ab_apply x _ r d
theorem pay6_apply (x : Vec Ideal S1x1024x3 .f32) (j : Fin 1024) (d : Fin 3) :
    k0_pay6 (F := Ideal) x (ix2 j d) = x (ix3 (0 : Fin 1) j d) :=
  shapeCast_1ab_ab_apply x _ j d

/-- The first coordinate's term of the first cloud's squared distance. -/
theorem pay9_apply (x0 : Vec Ideal S1x256x3 .f32) (x2 : Vec Ideal S1x1024x3 .f32) (r : Fin 256) (j : Fin 1024) :
    k0_pay9 (F := Ideal) x0 x2 (ix2 r j)
      = 0 + (x0 (ix3 (0 : Fin 1) r (0 : Fin 3)) - x2 (ix3 (0 : Fin 1) j (0 : Fin 3)))
            * (x0 (ix3 (0 : Fin 1) r (0 : Fin 3)) - x2 (ix3 (0 : Fin 1) j (0 : Fin 3))) := by
  unfold k0_pay9
  exact sqstep _ _ _ _ _ _ _ Ideal.ofBits_zero_f32
    ((col_chain 0 _ _ _ _ _ r j 0 rfl).trans (pay3_apply x0 r 0))
    ((row_chain 0 _ _ _ _ _ r j 0 rfl).trans (pay4_apply x2 j 0))

/-- The first coordinate's term of the second cloud's squared distance. -/
theorem pay10_apply (x4 : Vec Ideal S1x256x3 .f32) (x6 : Vec Ideal S1x1024x3 .f32) (r : Fin 256) (j : Fin 1024) :
    k0_pay10 (F := Ideal) x4 x6 (ix2 r j)
      = 0 + (x4 (ix3 (0 : Fin 1) r (0 : Fin 3)) - x6 (ix3 (0 : Fin 1) j (0 : Fin 3)))
            * (x4 (ix3 (0 : Fin 1) r (0 : Fin 3)) - x6 (ix3 (0 : Fin 1) j (0 : Fin 3))) := by
  unfold k0_pay10
  exact sqstep _ _ _ _ _ _ _ Ideal.ofBits_zero_f32
    ((col_chain 0 _ _ _ _ _ r j 0 rfl).trans (pay5_apply x4 r 0))
    ((row_chain 0 _ _ _ _ _ r j 0 rfl).trans (pay6_apply x6 j 0))

/-- The second and third coordinates' terms, the floor at zero and the square root: a distance from its first term. -/
theorem distTail (acc A1 B1 A2 B2 : FVec Ideal S256x1024 .f32) (i : S256x1024.Idx) (c a1 b1 a2 b2 : EReal)
    (hacc : acc i = c) (hA1 : A1 i = a1) (hB1 : B1 i = b1) (hA2 : A2 i = a2) (hB2 : B2 i = b2) :
    sqrt (maximumf (addf (addf acc (mulf (subf A1 B1) (subf A1 B1))) (mulf (subf A2 B2) (subf A2 B2)))
        (broadcast S256x1024 (Scalar.ofBits .f32 0x00000000#32))) i
      = Ideal.sqrt (max (c + (a1 - b1) * (a1 - b1) + (a2 - b2) * (a2 - b2)) 0) := by
  show Ideal.sqrt (max (acc i + (A1 i - B1 i) * (A1 i - B1 i) + (A2 i - B2 i) * (A2 i - B2 i)) (Ideal.ofBits .f32 0x00000000#32)) = _
  rw [hacc, hA1, hB1, hA2, hB2, Ideal.ofBits_zero_f32]

/-- The absolute difference of two arrays at an index. -/
theorem absdiff (A B : FVec Ideal S256x1024 .f32) (i : S256x1024.Idx) (a b : EReal) (hA : A i = a) (hB : B i = b) :
    absf (subf A B) i = max (a - b) (-(a - b)) := by
  show max (A i - B i) (-(A i - B i)) = _
  rw [hA, hB]

/-- The second cloud's distance payload at (r, j), from the matrices and the first coordinate's term. -/
theorem pay11_apply (v5 : FVec Ideal S256x3 .f32) (v7 : FVec Ideal S1024x3 .f32) (v37 : FVec Ideal S256x1024 .f32)
    (r : Fin 256) (j : Fin 1024) :
    k0_pay11 (F := Ideal) v5 v7 v37 (ix2 r j)
      = Ideal.sqrt (max (v37 (ix2 r j)
          + (v5 (ix2 r (1 : Fin 3)) - v7 (ix2 j (1 : Fin 3))) * (v5 (ix2 r (1 : Fin 3)) - v7 (ix2 j (1 : Fin 3)))
          + (v5 (ix2 r (2 : Fin 3)) - v7 (ix2 j (2 : Fin 3))) * (v5 (ix2 r (2 : Fin 3)) - v7 (ix2 j (2 : Fin 3)))) 0) := by
  unfold k0_pay11
  exact distTail _ _ _ _ _ _ _ _ _ _ _ rfl
    (col_chain 1 _ _ _ _ _ r j 1 rfl) (row_chain 1 _ _ _ _ _ r j 1 rfl)
    (col_chain 2 _ _ _ _ _ r j 2 rfl) (row_chain 2 _ _ _ _ _ r j 2 rfl)

/-- The absolute distance difference payload at (r, j). -/
theorem pay13_apply (v1 : FVec Ideal S256x3 .f32) (v3 : FVec Ideal S1024x3 .f32) (v5 : FVec Ideal S256x3 .f32)
    (v7 : FVec Ideal S1024x3 .f32) (v26 v37 : FVec Ideal S256x1024 .f32) (r : Fin 256) (j : Fin 1024) :
    k0_pay13 (F := Ideal) v1 v3 v5 v7 v26 v37 (ix2 r j)
      = max (Ideal.sqrt (max (v26 (ix2 r j)
              + (v1 (ix2 r (1 : Fin 3)) - v3 (ix2 j (1 : Fin 3))) * (v1 (ix2 r (1 : Fin 3)) - v3 (ix2 j (1 : Fin 3)))
              + (v1 (ix2 r (2 : Fin 3)) - v3 (ix2 j (2 : Fin 3))) * (v1 (ix2 r (2 : Fin 3)) - v3 (ix2 j (2 : Fin 3)))) 0)
            - k0_pay11 (F := Ideal) v5 v7 v37 (ix2 r j))
          (-(Ideal.sqrt (max (v26 (ix2 r j)
              + (v1 (ix2 r (1 : Fin 3)) - v3 (ix2 j (1 : Fin 3))) * (v1 (ix2 r (1 : Fin 3)) - v3 (ix2 j (1 : Fin 3)))
              + (v1 (ix2 r (2 : Fin 3)) - v3 (ix2 j (2 : Fin 3))) * (v1 (ix2 r (2 : Fin 3)) - v3 (ix2 j (2 : Fin 3)))) 0)
            - k0_pay11 (F := Ideal) v5 v7 v37 (ix2 r j))) := by
  unfold k0_pay13
  exact absdiff _ _ _ _ _
    (distTail _ _ _ _ _ _ _ _ _ _ _ rfl
      (col_chain 1 _ _ _ _ _ r j 1 rfl) (row_chain 1 _ _ _ _ _ r j 1 rfl)
      (col_chain 2 _ _ _ _ _ r j 2 rfl) (row_chain 2 _ _ _ _ _ r j 2 rfl)) rfl

/-- A row mask word as an extended real. -/
theorem pay7_apply (x8 : Vec Ideal S1x1x256 .i32) (r : Fin 256) :
    k0_pay7 (F := Ideal) x8 (ix1 r) = (((x8 (ix3 (0 : Fin 1) (0 : Fin 1) r)).toInt : ℝ) : EReal) := by
  unfold k0_pay7
  show ((((shapeCast S256 x8 shapeCasts_S1x1x256_S256 (ix1 r) : BitVec 32)).toInt : ℝ) : EReal) = _
  rw [shapeCast_11a_a_apply]

/-- A column mask word as an extended real. -/
theorem pay8_apply (x11 : Vec Ideal S1x1x1024 .i32) (j : Fin 1024) :
    k0_pay8 (F := Ideal) x11 (ix1 j) = (((x11 (ix3 (0 : Fin 1) (0 : Fin 1) j)).toInt : ℝ) : EReal) := by
  unfold k0_pay8
  show ((((shapeCast S1024 x11 shapeCasts_S1x1x1024_S1024 (ix1 j) : BitVec 32)).toInt : ℝ) : EReal) = _
  rw [shapeCast_11a_a_apply]

/-- The weight payload at (r, j): the product of the row's and the column's mask values. -/
theorem pay12_apply (v10 : FVec Ideal S256 .f32) (v13 : FVec Ideal S1024 .f32) (r : Fin 256) (j : Fin 1024) :
    k0_pay12 (F := Ideal) v10 v13 (ix2 r j) = v10 (ix1 r) * v13 (ix1 j) := by
  unfold k0_pay12
  show broadcastTo S256x1024 (shapeCast S256x1 v10 shapeCasts_S256_S256x1) broadcasts_S256x1_S256x1024 (ix2 r j)
      * broadcastTo S256x1024 (shapeCast S1x1024 v13 shapeCasts_S1024_S1x1024) broadcasts_S1x1024_S256x1024 (ix2 r j) = _
  rw [broadcastTo_a1_ab_apply, shapeCast_a_a1_apply, broadcastTo_1b_ab_apply, shapeCast_a_1a_apply]

/-! ## The two one-axis sums -/

/-- The sum over the columns: at row r, the sum over the 1024 columns. -/
theorem reduce_cols (v : FVec Ideal S256x1024 .f32) (h : S256x1024.Reduces [1] S256) (hφ : FKind.Formats .f32)
    (hacc : (0x00000000#32 : BitVec 32) = FKind.add.neutral .f32 hφ) (r : Fin 256) :
    multiReduction .add [1] S256 v 0x00000000#32 h hφ hacc (ix1 r) = ∑ k : Fin 1024, v (ix2 r k) := by
  refine (Ideal.multiReduction_add_single v _ h hφ hacc (ix1 r)).trans ?_
  refine Finset.sum_congr rfl fun k _ => congrArg v ?_
  funext c
  match c with
  | ⟨0, _⟩ => rfl
  | ⟨1, _⟩ => rfl

/-- The sum over the rows of a column: the sum over the 256 rows. -/
theorem reduce_rows (w : FVec Ideal S256x1 .f32) (h : S256x1.Reduces [0] S1) (hφ : FKind.Formats .f32)
    (hacc : (0x00000000#32 : BitVec 32) = FKind.add.neutral .f32 hφ) (u : Fin 1) :
    multiReduction .add [0] S1 w 0x00000000#32 h hφ hacc (ix1 u) = ∑ k : Fin 256, w (ix2 k u) := by
  refine (Ideal.multiReduction_add_single w _ h hφ hacc (ix1 u)).trans ?_
  refine Finset.sum_congr rfl fun k _ => congrArg w ?_
  funext c
  match c with
  | ⟨0, _⟩ => rfl
  | ⟨1, _⟩ => rfl

/-- The one entry of a [1, 1] array. -/
theorem extract00 {α : Type} (x : S1x1.Idx → α) (h : ∀ a, (![0, 0] : Fin 2 → Nat) a < S1x1.size a) :
    extractAt ![0, 0] x h = x (ix2 (0 : Fin 1) (0 : Fin 1)) := by
  unfold extractAt
  refine congrArg x (funext fun a => ?_)
  match a with
  | ⟨0, _⟩ => rfl
  | ⟨1, _⟩ => rfl

/-- The denominator block is, at every lane, the double sum of its operand over the 256 rows and 1024 columns. -/
theorem pay2_sum (v : FVec Ideal S256x1024 .f32) (y : S1x1x1x128.Idx) :
    k0_pay2 (F := Ideal) v y = ∑ r : Fin 256, ∑ j : Fin 1024, v (ix2 r j) := by
  unfold k0_pay2
  refine (extract00 _ _).trans ?_
  refine (shapeCast_a_1a_apply _ _ (0 : Fin 1) (0 : Fin 1)).trans ?_
  refine (reduce_rows _ _ _ _ (0 : Fin 1)).trans ?_
  exact Finset.sum_congr rfl fun r _ => (shapeCast_a_a1_apply _ _ r (0 : Fin 1)).trans (reduce_cols v _ _ _ r)

/-- The numerator block is the same double sum of the quotient-times-weight array. -/
theorem pay1_eq_pay2 (v87 v92 v94 : FVec Ideal S256x1024 .f32) (c : Ideal .f32) :
    k0_pay1 (F := Ideal) v87 v92 v94 c = k0_pay2 (F := Ideal) (mulf (divf v94 (addf v87 (broadcast S256x1024 c))) v92) := rfl

/-- The quotient-times-weight array at an index. -/
theorem loss_point (v87 v92 v94 : FVec Ideal S256x1024 .f32) (c : Ideal .f32) (i : S256x1024.Idx) (a d w : EReal)
    (h94 : v94 i = a) (h87 : v87 i = d) (h92 : v92 i = w) :
    mulf (divf v94 (addf v87 (broadcast S256x1024 c))) v92 i = Ideal.div a (d + c) * w := by
  show Ideal.div (v94 i) (v87 i + c) * v92 i = _
  rw [h94, h87, h92]

/-! ## The payloads as the specification's terms -/

open Cert.PairLoss in
/-- A distance with its three coordinates' terms written out, from zero, in the order the body adds them. -/
theorem dist_eq (X : Pts) (b : Fin 32) (i j : Fin 1024) :
    dist X b i j = Ideal.sqrt (max (0
      + (X (ix3 b i (0 : Fin 3)) - X (ix3 b j (0 : Fin 3))) * (X (ix3 b i (0 : Fin 3)) - X (ix3 b j (0 : Fin 3)))
      + (X (ix3 b i (1 : Fin 3)) - X (ix3 b j (1 : Fin 3))) * (X (ix3 b i (1 : Fin 3)) - X (ix3 b j (1 : Fin 3)))
      + (X (ix3 b i (2 : Fin 3)) - X (ix3 b j (2 : Fin 3))) * (X (ix3 b i (2 : Fin 3)) - X (ix3 b j (2 : Fin 3)))) 0) := by
  unfold Cert.PairLoss.dist Cert.PairLoss.sq
  rw [Fin.sum_univ_three, zero_add]

open Cert.PairLoss in
/-- The second distance payload at (r, j) is the cloud's distance between the tile's row r and point j. -/
theorem kdist (X : Pts) (b : Fin 32) (q : Fin 4) (xa : Vec Ideal S1x256x3 .f32) (xb : Vec Ideal S1x1024x3 .f32)
    (ha : ∀ (r : Fin 256) (d : Fin 3), xa (ix3 0 r d) = X (ix3 b (row q r) d))
    (hb : ∀ (j : Fin 1024) (d : Fin 3), xb (ix3 0 j d) = X (ix3 b j d)) (r : Fin 256) (j : Fin 1024) :
    k0_pay11 (F := Ideal) (k0_pay5 xa) (k0_pay6 xb) (k0_pay10 xa xb) (ix2 r j) = dist X b (row q r) j := by
  rw [pay11_apply, pay10_apply, dist_eq]
  simp only [pay5_apply, pay6_apply, ha, hb]

open Cert.PairLoss in
/-- The absolute-difference payload at (r, j) is the absolute difference of the two clouds' distances. -/
theorem kabs (P T : Pts) (b : Fin 32) (q : Fin 4)
    (x0 : Vec Ideal S1x256x3 .f32) (x2 : Vec Ideal S1x1024x3 .f32) (x4 : Vec Ideal S1x256x3 .f32) (x6 : Vec Ideal S1x1024x3 .f32)
    (h0 : ∀ (r : Fin 256) (d : Fin 3), x0 (ix3 0 r d) = P (ix3 b (row q r) d))
    (h2 : ∀ (j : Fin 1024) (d : Fin 3), x2 (ix3 0 j d) = P (ix3 b j d))
    (h4 : ∀ (r : Fin 256) (d : Fin 3), x4 (ix3 0 r d) = T (ix3 b (row q r) d))
    (h6 : ∀ (j : Fin 1024) (d : Fin 3), x6 (ix3 0 j d) = T (ix3 b j d)) (r : Fin 256) (j : Fin 1024) :
    k0_pay13 (F := Ideal) (k0_pay3 x0) (k0_pay4 x2) (k0_pay5 x4) (k0_pay6 x6) (k0_pay9 x0 x2) (k0_pay10 x4 x6) (ix2 r j)
      = max (dist P b (row q r) j - dist T b (row q r) j) (-(dist P b (row q r) j - dist T b (row q r) j)) := by
  rw [pay13_apply, kdist T b q x4 x6 h4 h6 r j, pay9_apply, dist_eq P]
  simp only [pay3_apply, pay4_apply, h0, h2]

open Cert.PairLoss in
/-- The weight payload at (r, j) is the pair's weight. -/
theorem kwt (M : Msk) (b : Fin 32) (q : Fin 4) (x8 : Vec Ideal S1x1x256 .i32) (x11 : Vec Ideal S1x1x1024 .i32)
    (h8 : ∀ r : Fin 256, x8 (ix3 0 0 r) = M (ix2 b (row q r)))
    (h11 : ∀ j : Fin 1024, x11 (ix3 0 0 j) = M (ix2 b j)) (r : Fin 256) (j : Fin 1024) :
    k0_pay12 (F := Ideal) (k0_pay7 x8) (k0_pay8 x11) (ix2 r j) = wt M b (row q r) j := by
  rw [pay12_apply, pay7_apply, pay8_apply, h8, h11]
  rfl

/-! ## The two blocks -/

/-- The numerator block: at every lane, the tile's share of the loss. -/
theorem num_block (P T : Cert.PairLoss.Pts) (M : Cert.PairLoss.Msk) (b : Fin 32) (q : Fin 4)
    (x0 : Vec Ideal S1x256x3 .f32) (x2 : Vec Ideal S1x1024x3 .f32) (x4 : Vec Ideal S1x256x3 .f32) (x6 : Vec Ideal S1x1024x3 .f32)
    (x8 : Vec Ideal S1x1x256 .i32) (x11 : Vec Ideal S1x1x1024 .i32)
    (h0 : ∀ (r : Fin 256) (d : Fin 3), x0 (ix3 0 r d) = P (ix3 b (Cert.PairLoss.row q r) d))
    (h2 : ∀ (j : Fin 1024) (d : Fin 3), x2 (ix3 0 j d) = P (ix3 b j d))
    (h4 : ∀ (r : Fin 256) (d : Fin 3), x4 (ix3 0 r d) = T (ix3 b (Cert.PairLoss.row q r) d))
    (h6 : ∀ (j : Fin 1024) (d : Fin 3), x6 (ix3 0 j d) = T (ix3 b j d))
    (h8 : ∀ r : Fin 256, x8 (ix3 0 0 r) = M (ix2 b (Cert.PairLoss.row q r)))
    (h11 : ∀ j : Fin 1024, x11 (ix3 0 0 j) = M (ix2 b j))
    (y : S1x1x1x128.Idx) :
    k0_pay1 (F := Ideal) (k0_pay11 (k0_pay5 x4) (k0_pay6 x6) (k0_pay10 x4 x6)) (k0_pay12 (k0_pay7 x8) (k0_pay8 x11))
      (k0_pay13 (k0_pay3 x0) (k0_pay4 x2) (k0_pay5 x4) (k0_pay6 x6) (k0_pay9 x0 x2) (k0_pay10 x4 x6))
      (Scalar.ofBits .f32 0x322BCC77#32) y
    = Cert.PairLoss.tileNum P T M b q := by
  rw [pay1_eq_pay2, pay2_sum]
  unfold Cert.PairLoss.tileNum
  refine Finset.sum_congr rfl fun r _ => Finset.sum_congr rfl fun j _ => ?_
  exact loss_point _ _ _ _ _ _ _ _ (kabs P T b q x0 x2 x4 x6 h0 h2 h4 h6 r j) (kdist T b q x4 x6 h4 h6 r j)
    (kwt M b q x8 x11 h8 h11 r j)

/-- The denominator block: at every lane, the tile's share of the total weight. -/
theorem den_block (M : Cert.PairLoss.Msk) (b : Fin 32) (q : Fin 4)
    (x8 : Vec Ideal S1x1x256 .i32) (x11 : Vec Ideal S1x1x1024 .i32)
    (h8 : ∀ r : Fin 256, x8 (ix3 0 0 r) = M (ix2 b (Cert.PairLoss.row q r)))
    (h11 : ∀ j : Fin 1024, x11 (ix3 0 0 j) = M (ix2 b j))
    (y : S1x1x1x128.Idx) :
    k0_pay2 (F := Ideal) (k0_pay12 (k0_pay7 x8) (k0_pay8 x11)) y = Cert.PairLoss.tileDen M b q := by
  rw [pay2_sum]
  unfold Cert.PairLoss.tileDen
  exact Finset.sum_congr rfl fun r _ => Finset.sum_congr rfl fun j _ => kwt M b q x8 x11 h8 h11 r j

end Cert.KernelIdeal.TileValue

end
-- ==== Proof.TileArrays.lean ====
/-
  The two result arrays after the pipelined region, entry by entry, at the extended reals.

  Grid point (b, q) loads rows 256 q .. 256 q + 255 and all 1024 rows of each cloud b and the matching slices of the
  mask, and writes one block of each result array, the entries [b, q, 0, l] for the 128 lanes l. So entry [b, q, 0, 0] of the first
  result array is the tile's share of the loss and that of the second the tile's share of the total weight, of the three
  argument arrays as the program was launched with them.
-/
import proofs.«155562_j5179730559713_2_alg».proof.Proof.TileFrame
import proofs.«155562_j5179730559713_2_alg».proof.Proof.TileValue
import proofs.«155562_j5179730559713_2_alg».proof.Proof.PairLoss
import Idealize.ShloMosaic.Lib.Pipeline.Value
import Idealize.ShloMosaic.Lib.ValueIdx
import Idealize.ShloMosaic.Lib.Tactic

noncomputable section

namespace Cert.KernelIdeal.TileArrays

open Cert.KernelIdeal Cert.KernelIdeal.Gen Cert.KernelIdeal.TileFrame
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The arrays as the region finds them -/

/-- The first cloud's array is as launched: the one host line before the region does not write it. -/
theorem V_arg0 (c : Dev nD) : V m c main_arg0 = m ((c : Thread nD τ).loc main_arg0) := by
  show StableHlo.after (List.flatten [hostOps0]) (fun b => m (c, b)) (Proc.devRef .tc main_arg0) = _
  simp only [hostOps0, List.flatten_cons, List.flatten_nil, List.append_nil]
  after_results

/-- The second cloud's array likewise. -/
theorem V_arg1 (c : Dev nD) : V m c main_arg1 = m ((c : Thread nD τ).loc main_arg1) := by
  show StableHlo.after (List.flatten [hostOps0]) (fun b => m (c, b)) (Proc.devRef .tc main_arg1) = _
  simp only [hostOps0, List.flatten_cons, List.flatten_nil, List.append_nil]
  after_results

/-- The reshaped mask is the launched mask with a unit axis put in the middle. -/
theorem V_v0 (c : Dev nD) : V m c main_v0
    = broadcastInDim S32x1x1024 ![0, 2] bcast_S32x1024_S32x1x1024_0_2 (m ((c : Thread nD τ).loc main_arg2)) := by
  show StableHlo.after (List.flatten [hostOps0]) (fun b => m (c, b)) (Proc.devRef .tc main_v0) = _
  simp only [hostOps0, List.flatten_cons, List.flatten_nil, List.append_nil]
  after_results

/-- The reshaped mask at (b, 0, j) is the launched mask at (b, j). -/
theorem V_v0_apply (c : Dev nD) (b : Fin 32) (u : Fin 1) (j : Fin 1024) :
    (V m c main_v0 : S32x1x1024.Idx → BitVec 32) (ix3 b u j)
      = (m ((c : Thread nD τ).loc main_arg2) : S32x1024.Idx → BitVec 32) (ix2 b j) := by
  rw [V_v0]
  exact broadcastInDim_apply _ bcast_S32x1024_S32x1x1024_0_2 _ (ix3 b u j) (ix2 b j) (fun a => match a with
    | ⟨0, _⟩ => by show b.val = if (32 : Nat) = 1 then 0 else b.val; rw [if_neg (by decide)]
    | ⟨1, _⟩ => by show j.val = if (1024 : Nat) = 1 then 0 else j.val; rw [if_neg (by decide)])

/-! ## The windows' block indices over the grid -/

/-- Point t of the 32 x 4 grid is (cloud, tile) = (t / 4, t % 4); each window's block index there. -/
theorem idx0 : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, _)
theorem idx1 : ∀ t : Fin cfg0.N, win0_1.index t (0 : Fin 3) = t.val / 4 ∧ win0_1.index t (1 : Fin 3) = 0
    ∧ win0_1.index t (2 : Fin 3) = 0 :=
  (by decide +kernel : ∀ t : Fin grid0.N, _)
theorem idx2 : ∀ t : Fin cfg0.N, win0_2.index t (0 : Fin 3) = t.val / 4 ∧ win0_2.index t (1 : Fin 3) = t.val % 4
    ∧ win0_2.index t (2 : Fin 3) = 0 :=
  (by decide +kernel : ∀ t : Fin grid0.N, _)
theorem idx3 : ∀ t : Fin cfg0.N, win0_3.index t (0 : Fin 3) = t.val / 4 ∧ win0_3.index t (1 : Fin 3) = 0
    ∧ win0_3.index t (2 : Fin 3) = 0 :=
  (by decide +kernel : ∀ t : Fin grid0.N, _)
theorem idx4 : ∀ t : Fin cfg0.N, win0_4.index t (0 : Fin 3) = t.val / 4 ∧ win0_4.index t (1 : Fin 3) = 0
    ∧ win0_4.index t (2 : Fin 3) = t.val % 4 :=
  (by decide +kernel : ∀ t : Fin grid0.N, _)
theorem idx5 : ∀ t : Fin cfg0.N, win0_5.index t (0 : Fin 3) = t.val / 4 ∧ win0_5.index t (1 : Fin 3) = 0
    ∧ win0_5.index t (2 : Fin 3) = 0 :=
  (by decide +kernel : ∀ t : Fin grid0.N, _)
theorem idx6 : ∀ t : Fin cfg0.N, win0_6.index t (0 : Fin 4) = t.val / 4 ∧ win0_6.index t (1 : Fin 4) = t.val % 4
    ∧ win0_6.index t (2 : Fin 4) = 0 ∧ win0_6.index t (3 : Fin 4) = 0 :=
  (by decide +kernel : ∀ t : Fin grid0.N, _)
theorem idx7 : ∀ t : Fin cfg0.N, win0_7.index t (0 : Fin 4) = t.val / 4 ∧ win0_7.index t (1 : Fin 4) = t.val % 4
    ∧ win0_7.index t (2 : Fin 4) = 0 ∧ win0_7.index t (3 : Fin 4) = 0 :=
  (by decide +kernel : ∀ t : Fin grid0.N, _)

/-! ## The input blocks read off the arrays -/

section Blocks
variable (c : Dev nD) (t : Fin cfg0.N) (b : Fin 32) (q : Fin 4) (hb : t.val / 4 = b.val) (hq : t.val % 4 = q.val)
include hb hq

/-- The tile's rows of the first cloud. -/
theorem iblk0_apply (r : Fin 256) (d : Fin 3) :
    (iblk m c 0 t : Vec Ideal S1x256x3 .f32) (ix3 (0 : Fin 1) r d)
      = (V m c main_arg0 : S32x1024x3.Idx → EReal) (ix3 b (Cert.PairLoss.row q r) d) := by
  obtain ⟨e0, e1, e2⟩ := idx0 t
  show V m c main_arg0 (((cfg0.win 0).blk t).view.emb (ix3 (0 : Fin 1) r d)) = _
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 256 + 1 * r.val = 256 * q.val + r.val; omega
  | ⟨2, _⟩ => show win0_0.index t (2 : Fin 3) * 3 + 1 * d.val = d.val; omega

/-- All rows of the first cloud. -/
theorem iblk1_apply (j : Fin 1024) (d : Fin 3) :
    (iblk m c 1 t : Vec Ideal S1x1024x3 .f32) (ix3 (0 : Fin 1) j d)
      = (V m c main_arg0 : S32x1024x3.Idx → EReal) (ix3 b j d) := by
  obtain ⟨e0, e1, e2⟩ := idx1 t
  show V m c main_arg0 (((cfg0.win 1).blk t).view.emb (ix3 (0 : Fin 1) j d)) = _
  refine congrArg (V m c main_arg0) (funext fun a => Fin.ext ?_)
  match a with
  | ⟨0, _⟩ => show win0_1.index t (0 : Fin 3) * 1 + 1 * 0 = b.val; omega
  | ⟨1, _⟩ => show win0_1.index t (1 : Fin 3) * 1024 + 1 * j.val = j.val; omega
  | ⟨2, _⟩ => show win0_1.index t (2 : Fin 3) * 3 + 1 * d.val = d.val; omega

/-- The tile's rows of the second cloud. -/
theorem iblk2_apply (r : Fin 256) (d : Fin 3) :
    (iblk m c 2 t : Vec Ideal S1x256x3 .f32) (ix3 (0 : Fin 1) r d)
      = (V m c main_arg1 : S32x1024x3.Idx → EReal) (ix3 b (Cert.PairLoss.row q r) d) := by
  obtain ⟨e0, e1, e2⟩ := idx2 t
  show V m c main_arg1 (((cfg0.win 2).blk t).view.emb (ix3 (0 : Fin 1) r d)) = _
  refine congrArg (V m c main_arg1) (funext fun a => Fin.ext ?_)
  match a with
  | ⟨0, _⟩ => show win0_2.index t (0 : Fin 3) * 1 + 1 * 0 = b.val; omega
  | ⟨1, _⟩ => show win0_2.index t (1 : Fin 3) * 256 + 1 * r.val = 256 * q.val + r.val; omega
  | ⟨2, _⟩ => show win0_2.index t (2 : Fin 3) * 3 + 1 * d.val = d.val; omega

/-- All rows of the second cloud. -/
theorem iblk3_apply (j : Fin 1024) (d : Fin 3) :
    (iblk m c 3 t : Vec Ideal S1x1024x3 .f32) (ix3 (0 : Fin 1) j d)
      = (V m c main_arg1 : S32x1024x3.Idx → EReal) (ix3 b j d) := by
  obtain ⟨e0, e1, e2⟩ := idx3 t
  show V m c main_arg1 (((cfg0.win 3).blk t).view.emb (ix3 (0 : Fin 1) j d)) = _
  refine congrArg (V m c main_arg1) (funext fun a => Fin.ext ?_)
  match a with
  | ⟨0, _⟩ => show win0_3.index t (0 : Fin 3) * 1 + 1 * 0 = b.val; omega
  | ⟨1, _⟩ => show win0_3.index t (1 : Fin 3) * 1024 + 1 * j.val = j.val; omega
  | ⟨2, _⟩ => show win0_3.index t (2 : Fin 3) * 3 + 1 * d.val = d.val; omega

/-- The tile's rows of the reshaped mask. -/
theorem iblk4_apply (r : Fin 256) :
    (iblk m c 4 t : Vec Ideal S1x1x256 .i32) (ix3 (0 : Fin 1) (0 : Fin 1) r)
      = (V m c main_v0 : S32x1x1024.Idx → BitVec 32) (ix3 b (0 : Fin 1) (Cert.PairLoss.row q r)) := by
  obtain ⟨e0, e1, e2⟩ := idx4 t
  show V m c main_v0 (((cfg0.win 4).blk t).view.emb (ix3 (0 : Fin 1) (0 : Fin 1) r)) = _
  refine congrArg (V m c main_v0) (funext fun a => Fin.ext ?_)
  match a with
  | ⟨0, _⟩ => show win0_4.index t (0 : Fin 3) * 1 + 1 * 0 = b.val; omega
  | ⟨1, _⟩ => show win0_4.index t (1 : Fin 3) * 1 + 1 * 0 = 0; omega
  | ⟨2, _⟩ => show win0_4.index t (2 : Fin 3) * 256 + 1 * r.val = 256 * q.val + r.val; omega

/-- All of the cloud's reshaped mask. -/
theorem iblk5_apply (j : Fin 1024) :
    (iblk m c 5 t : Vec Ideal S1x1x1024 .i32) (ix3 (0 : Fin 1) (0 : Fin 1) j)
      = (V m c main_v0 : S32x1x1024.Idx → BitVec 32) (ix3 b (0 : Fin 1) j) := by
  obtain ⟨e0, e1, e2⟩ := idx5 t
  show V m c main_v0 (((cfg0.win 5).blk t).view.emb (ix3 (0 : Fin 1) (0 : Fin 1) j)) = _
  refine congrArg (V m c main_v0) (funext fun a => Fin.ext ?_)
  match a with
  | ⟨0, _⟩ => show win0_5.index t (0 : Fin 3) * 1 + 1 * 0 = b.val; omega
  | ⟨1, _⟩ => show win0_5.index t (1 : Fin 3) * 1 + 1 * 0 = 0; omega
  | ⟨2, _⟩ => show win0_5.index t (2 : Fin 3) * 1024 + 1 * j.val = j.val; omega

end Blocks

/-! ## What a grid point writes back -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The first result's block after the body, over six input blocks that are the tile's parts of three arrays: at every
    lane the tile's share of the loss. -/
theorem out6_apply (P T : Cert.PairLoss.Pts) (M : Cert.PairLoss.Msk) (b : Fin 32) (q : Fin 4)
    (x0 : Vec Ideal S1x256x3 .f32) (x1 : Vec Ideal S1x1024x3 .f32) (x2 : Vec Ideal S1x256x3 .f32) (x3 : Vec Ideal S1x1024x3 .f32)
    (x4 : Vec Ideal S1x1x256 .i32) (x5 : Vec Ideal S1x1x1024 .i32)
    (h0 : ∀ (r : Fin 256) (d : Fin 3), x0 (ix3 0 r d) = P (ix3 b (Cert.PairLoss.row q r) d))
    (h1 : ∀ (j : Fin 1024) (d : Fin 3), x1 (ix3 0 j d) = P (ix3 b j d))
    (h2 : ∀ (r : Fin 256) (d : Fin 3), x2 (ix3 0 r d) = T (ix3 b (Cert.PairLoss.row q r) d))
    (h3 : ∀ (j : Fin 1024) (d : Fin 3), x3 (ix3 0 j d) = T (ix3 b j d))
    (h4 : ∀ r : Fin 256, x4 (ix3 0 0 r) = M (ix2 b (Cert.PairLoss.row q r)))
    (h5 : ∀ j : Fin 1024, x5 (ix3 0 0 j) = M (ix2 b j))
    (y : S1x1x1x128.Idx) :
    out6 (F := Ideal) x0 x1 x2 x3 x4 x5 y = Cert.PairLoss.tileNum P T M b q := by
  unfold out6
  rw [View.canon_unit_zero hz4]
  simp only [View.ld_unit_zero (S := S1x256x3) hz3, View.ld_unit_zero (S := S1x1024x3) hz3,
    View.ld_unit_zero (S := S1x1x256) hz3, View.ld_unit_zero (S := S1x1x1024) hz3]
  unfold numPay
  exact TileValue.num_block P T M b q x0 x1 x2 x3 x4 x5 h0 h1 h2 h3 h4 h5 y

/-- The second result's block after the body: at every lane the tile's share of the total weight. -/
theorem out7_apply (M : Cert.PairLoss.Msk) (b : Fin 32) (q : Fin 4)
    (x4 : Vec Ideal S1x1x256 .i32) (x5 : Vec Ideal S1x1x1024 .i32)
    (h4 : ∀ r : Fin 256, x4 (ix3 0 0 r) = M (ix2 b (Cert.PairLoss.row q r)))
    (h5 : ∀ j : Fin 1024, x5 (ix3 0 0 j) = M (ix2 b j))
    (y : S1x1x1x128.Idx) :
    out7 (F := Ideal) x4 x5 y = Cert.PairLoss.tileDen M b q := by
  unfold out7
  rw [View.canon_unit_zero hz4]
  simp only [View.ld_unit_zero (S := S1x1x256) hz3, View.ld_unit_zero (S := S1x1x1024) hz3]
  unfold denPay
  exact TileValue.den_block M b q x4 x5 h4 h5 y

section Flushed
variable (c : Dev nD) (t : Fin cfg0.N) (b : Fin 32) (q : Fin 4) (hb : t.val / 4 = b.val) (hq : t.val % 4 = q.val)
include hb hq

/-- What point (b, q) writes back to the first result array: at every lane the tile's share of the loss of the launched arrays. -/
theorem flushed6_apply (y : ((cfg0.win 6).xblock (cfg0.grid.coords t)).Idx) :
    (dats (F := Ideal) m 0 c).flushed 6 t y
      = Cert.PairLoss.tileNum (m ((c : Thread nD τ).loc main_arg0)) (m ((c : Thread nD τ).loc main_arg1))
          (m ((c : Thread nD τ).loc main_arg2)) b q := by
  show (cfg0.win 6).cut (grid0.coords t) ((dats m 0 c).after 6 t) y = _
  rw [after6]
  exact out6_apply _ _ _ b q _ _ _ _ _ _
    (fun r d => (iblk0_apply m c t b q hb hq r d).trans (congrFun (V_arg0 m c) _))
    (fun j d => (iblk1_apply m c t b q hb hq j d).trans (congrFun (V_arg0 m c) _))
    (fun r d => (iblk2_apply m c t b q hb hq r d).trans (congrFun (V_arg1 m c) _))
    (fun j d => (iblk3_apply m c t b q hb hq j d).trans (congrFun (V_arg1 m c) _))
    (fun r => (iblk4_apply m c t b q hb hq r).trans (V_v0_apply m c b 0 _))
    (fun j => (iblk5_apply m c t b q hb hq j).trans (V_v0_apply m c b 0 j)) _

/-- What point (b, q) writes back to the second result array: at every lane the tile's share of the total weight. -/
theorem flushed7_apply (y : ((cfg0.win 7).xblock (cfg0.grid.coords t)).Idx) :
    (dats (F := Ideal) m 0 c).flushed 7 t y
      = Cert.PairLoss.tileDen (m ((c : Thread nD τ).loc main_arg2)) b q := by
  show (cfg0.win 7).cut (grid0.coords t) ((dats m 0 c).after 7 t) y = _
  rw [after7]
  exact out7_apply _ b q _ _
    (fun r => (iblk4_apply m c t b q hb hq r).trans (V_v0_apply m c b 0 _))
    (fun j => (iblk5_apply m c t b q hb hq j).trans (V_v0_apply m c b 0 j)) _

end Flushed

/-! ## The two result arrays -/

/-- The grid point of cloud b and tile q. -/
def pt (b : Fin 32) (q : Fin 4) : Fin cfg0.N :=
  ⟨4 * b.val + q.val, by show 4 * b.val + q.val < grid0.N; rw [N_0]; omega⟩

/-- Entry (b, q, 0, 0) lies in the block point (b, q) writes back, in either result array. -/
theorem mem_blk6 (b : Fin 32) (q : Fin 4) :
    (ix4 b q (0 : Fin 1) (0 : Fin 128) : S32x4x1x128.Idx) ∈ ((cfg0.win 6).blk (pt b q)).view.set := by
  obtain ⟨e0, e1, e2, e3⟩ := idx6 (pt b q)
  have hv : (pt b q).val = 4 * b.val + q.val := rfl
  show _ ∈ ((View.whole main_v1_0).slice (win0_6.rect (pt b q))).set
  rw [View.set_slice_whole, Rect.mem_set_unit]
  intro a
  match a with
  | ⟨0, _⟩ => show win0_6.index (pt b q) (0 : Fin 4) * 1 ≤ b.val ∧ b.val < win0_6.index (pt b q) (0 : Fin 4) * 1 + 1; omega
  | ⟨1, _⟩ => show win0_6.index (pt b q) (1 : Fin 4) * 1 ≤ q.val ∧ q.val < win0_6.index (pt b q) (1 : Fin 4) * 1 + 1; omega
  | ⟨2, _⟩ => show win0_6.index (pt b q) (2 : Fin 4) * 1 ≤ 0 ∧ 0 < win0_6.index (pt b q) (2 : Fin 4) * 1 + 1; omega
  | ⟨3, _⟩ => show win0_6.index (pt b q) (3 : Fin 4) * 128 ≤ 0 ∧ 0 < win0_6.index (pt b q) (3 : Fin 4) * 128 + 128; omega

theorem mem_blk7 (b : Fin 32) (q : Fin 4) :
    (ix4 b q (0 : Fin 1) (0 : Fin 128) : S32x4x1x128.Idx) ∈ ((cfg0.win 7).blk (pt b q)).view.set := by
  obtain ⟨e0, e1, e2, e3⟩ := idx7 (pt b q)
  have hv : (pt b q).val = 4 * b.val + q.val := rfl
  show _ ∈ ((View.whole main_v1_1).slice (win0_7.rect (pt b q))).set
  rw [View.set_slice_whole, Rect.mem_set_unit]
  intro a
  match a with
  | ⟨0, _⟩ => show win0_7.index (pt b q) (0 : Fin 4) * 1 ≤ b.val ∧ b.val < win0_7.index (pt b q) (0 : Fin 4) * 1 + 1; omega
  | ⟨1, _⟩ => show win0_7.index (pt b q) (1 : Fin 4) * 1 ≤ q.val ∧ q.val < win0_7.index (pt b q) (1 : Fin 4) * 1 + 1; omega
  | ⟨2, _⟩ => show win0_7.index (pt b q) (2 : Fin 4) * 1 ≤ 0 ∧ 0 < win0_7.index (pt b q) (2 : Fin 4) * 1 + 1; omega
  | ⟨3, _⟩ => show win0_7.index (pt b q) (3 : Fin 4) * 128 ≤ 0 ∧ 0 < win0_7.index (pt b q) (3 : Fin 4) * 128 + 128; omega

/-- The first result array as one function of its index: at (b, q, ·, ·) the share of tile q of cloud b. -/
def G6 (c : Dev nD) : S32x4x1x128.Idx → EReal := fun i =>
  Cert.PairLoss.tileNum (m ((c : Thread nD τ).loc main_arg0)) (m ((c : Thread nD τ).loc main_arg1))
    (m ((c : Thread nD τ).loc main_arg2)) (i 0) (i 1)

/-- The second result array as one function of its index. -/
def G7 (c : Dev nD) : S32x4x1x128.Idx → EReal := fun i =>
  Cert.PairLoss.tileDen (m ((c : Thread nD τ).loc main_arg2)) (i 0) (i 1)

/-- An index of the block point t writes back has cloud t / 4 and tile t % 4 as its first two coordinates. -/
theorem emb6 (t : Fin cfg0.N) (y : ((cfg0.win 6).xblock (cfg0.grid.coords t)).Idx) (b : Fin 32) (q : Fin 4)
    (hb : t.val / 4 = b.val) (hq : t.val % 4 = q.val) :
    (((cfg0.win 6).blk t).view.emb y : S32x4x1x128.Idx) 0 = b ∧ (((cfg0.win 6).blk t).view.emb y : S32x4x1x128.Idx) 1 = q := by
  obtain ⟨e0, e1, e2, e3⟩ := idx6 t
  have h0 : (y 0).val < 1 := (y 0).isLt
  have h1 : (y 1).val < 1 := (y 1).isLt
  exact ⟨Fin.ext (by show win0_6.index t (0 : Fin 4) * 1 + 1 * (y 0).val = b.val; omega),
    Fin.ext (by show win0_6.index t (1 : Fin 4) * 1 + 1 * (y 1).val = q.val; omega)⟩

theorem emb7 (t : Fin cfg0.N) (y : ((cfg0.win 7).xblock (cfg0.grid.coords t)).Idx) (b : Fin 32) (q : Fin 4)
    (hb : t.val / 4 = b.val) (hq : t.val % 4 = q.val) :
    (((cfg0.win 7).blk t).view.emb y : S32x4x1x128.Idx) 0 = b ∧ (((cfg0.win 7).blk t).view.emb y : S32x4x1x128.Idx) 1 = q := by
  obtain ⟨e0, e1, e2, e3⟩ := idx7 t
  have h0 : (y 0).val < 1 := (y 0).isLt
  have h1 : (y 1).val < 1 := (y 1).isLt
  exact ⟨Fin.ext (by show win0_7.index t (0 : Fin 4) * 1 + 1 * (y 0).val = b.val; omega),
    Fin.ext (by show win0_7.index t (1 : Fin 4) * 1 + 1 * (y 1).val = q.val; omega)⟩

/-- A function of the array index read through a point's block is the function at the block index's place in the array. -/
theorem read6_apply (G : S32x4x1x128.Idx → EReal) (t : Fin cfg0.N) (y : ((cfg0.win 6).xblock (cfg0.grid.coords t)).Idx) :
    ((cfg0.win 6).blk t).view.read (Elt Ideal) G y = G (((cfg0.win 6).blk t).view.emb y) := rfl
theorem read7_apply (G : S32x4x1x128.Idx → EReal) (t : Fin cfg0.N) (y : ((cfg0.win 7).xblock (cfg0.grid.coords t)).Idx) :
    ((cfg0.win 7).blk t).view.read (Elt Ideal) G y = G (((cfg0.win 7).blk t).view.emb y) := rfl

/-- The first function at an index of point (b, q)'s block is the share of tile q of cloud b. -/
theorem G6_emb (c : Dev nD) (t : Fin cfg0.N) (y : ((cfg0.win 6).xblock (cfg0.grid.coords t)).Idx) (b : Fin 32) (q : Fin 4)
    (hb : t.val / 4 = b.val) (hq : t.val % 4 = q.val) :
    G6 m c (((cfg0.win 6).blk t).view.emb y)
      = Cert.PairLoss.tileNum (m ((c : Thread nD τ).loc main_arg0)) (m ((c : Thread nD τ).loc main_arg1))
          (m ((c : Thread nD τ).loc main_arg2)) b q := by
  obtain ⟨h0, h1⟩ := emb6 t y b q hb hq
  unfold G6
  rw [h0, h1]
theorem G7_emb (c : Dev nD) (t : Fin cfg0.N) (y : ((cfg0.win 7).xblock (cfg0.grid.coords t)).Idx) (b : Fin 32) (q : Fin 4)
    (hb : t.val / 4 = b.val) (hq : t.val % 4 = q.val) :
    G7 m c (((cfg0.win 7).blk t).view.emb y) = Cert.PairLoss.tileDen (m ((c : Thread nD τ).loc main_arg2)) b q := by
  obtain ⟨h0, h1⟩ := emb7 t y b q hb hq
  unfold G7
  rw [h0, h1]

/-- The two functions at (b, q, 0, 0). -/
theorem G6_at (c : Dev nD) (b : Fin 32) (q : Fin 4) :
    G6 m c (ix4 b q (0 : Fin 1) (0 : Fin 128))
      = Cert.PairLoss.tileNum (m ((c : Thread nD τ).loc main_arg0)) (m ((c : Thread nD τ).loc main_arg1))
          (m ((c : Thread nD τ).loc main_arg2)) b q := by
  unfold G6
  rfl
theorem G7_at (c : Dev nD) (b : Fin 32) (q : Fin 4) :
    G7 m c (ix4 b q (0 : Fin 1) (0 : Fin 128)) = Cert.PairLoss.tileDen (m ((c : Thread nD τ).loc main_arg2)) b q := by
  unfold G7
  rfl

attribute [local irreducible] G6 G7

/-- Every point writes back its block of that function. -/
theorem flushed6_eq (c : Dev nD) (t : Fin cfg0.N) :
    (dats (F := Ideal) m 0 c).flushed 6 t = ((cfg0.win 6).blk t).view.read (Elt Ideal) (G6 m c) := by
  have hN : t.val < 128 := Nat.lt_of_lt_of_eq t.isLt N_0
  funext y
  exact (flushed6_apply m c t ⟨t.val / 4, by omega⟩ ⟨t.val % 4, by omega⟩ rfl rfl y).trans
    ((G6_emb m c t y ⟨t.val / 4, by omega⟩ ⟨t.val % 4, by omega⟩ rfl rfl).symm.trans (read6_apply (G6 m c) t y).symm)

theorem flushed7_eq (c : Dev nD) (t : Fin cfg0.N) :
    (dats (F := Ideal) m 0 c).flushed 7 t = ((cfg0.win 7).blk t).view.read (Elt Ideal) (G7 m c) := by
  have hN : t.val < 128 := Nat.lt_of_lt_of_eq t.isLt N_0
  funext y
  exact (flushed7_apply m c t ⟨t.val / 4, by omega⟩ ⟨t.val % 4, by omega⟩ rfl rfl y).trans
    ((G7_emb m c t y ⟨t.val / 4, by omega⟩ ⟨t.val % 4, by omega⟩ rfl rfl).symm.trans (read7_apply (G7 m c) t y).symm)

/-- Entry (b, q, 0, 0) of the first result array after the region: the share of tile q of cloud b of the loss. -/
theorem arr6_at (c : Dev nD) (b : Fin 32) (q : Fin 4) :
    (dats (F := Ideal) m 0 c).arrAt 6 cfg0.N (ix4 b q (0 : Fin 1) (0 : Fin 128))
      = Cert.PairLoss.tileNum (m ((c : Thread nD τ).loc main_arg0)) (m ((c : Thread nD τ).loc main_arg1))
          (m ((c : Thread nD τ).loc main_arg2)) b q :=
  ((dats (F := Ideal) m 0 c).arrAt_apply_of_mem 6 (G6 m c) (fun t _ => flushed6_eq m c t) cfg0.N (pt b q)
    (ix4 b q (0 : Fin 1) (0 : Fin 128)) (pt b q).isLt (flush0_6 _) (mem_blk6 b q)).trans (G6_at m c b q)

/-- Entry (b, q, 0, 0) of the second result array after the region: the share of tile q of cloud b of the total weight. -/
theorem arr7_at (c : Dev nD) (b : Fin 32) (q : Fin 4) :
    (dats (F := Ideal) m 0 c).arrAt 7 cfg0.N (ix4 b q (0 : Fin 1) (0 : Fin 128))
      = Cert.PairLoss.tileDen (m ((c : Thread nD τ).loc main_arg2)) b q :=
  ((dats (F := Ideal) m 0 c).arrAt_apply_of_mem 7 (G7 m c) (fun t _ => flushed7_eq m c t) cfg0.N (pt b q)
    (ix4 b q (0 : Fin 1) (0 : Fin 128)) (pt b q).isLt (flush0_7 _) (mem_blk7 b q)).trans (G7_at m c b q)

end Cert.KernelIdeal.TileArrays

end
-- ==== Proof.TailValue.lean ====
/-
  The kernel program's closing host lines as ONE function of the two result arrays, and its value over the extended reals.

  Each result array has shape [32, 4, 1, 128]. The closing lines take of each its slice [0:32, 0:4, 0:1, 0:1], read that
  as a [32, 4] array (same row-major order), add up all its entries starting from the zero constant, and divide the first
  total by the second. Over the extended reals a total started from zero is the double sum over (b, q) of the array's
  entry at (b, q, 0, 0): the slice has zero offsets, so it reads the array at the same coordinates; entry (b, q) of the
  [32, 4] array has row-major position 4 b + q, which is that of (b, q, 0, 0) in [32, 4, 1, 1].
-/
import proofs.«155562_j5179730559713_2_alg».proof.Proof.Gen.KernelIdeal
import Idealize.ShloMosaic.Lib.ValueIdx
import Idealize.ShloMosaic.Lib.Pipeline.Value
import Idealize.ShloMosaic.PureOps.Ideal.Laws

noncomputable section

open scoped BigOperators

namespace Cert.KernelIdeal.TailValue

open Cert.KernelIdeal Cert.KernelIdeal.Facts₀ Idealize.ShloMosaic Idealize.ShloMosaic.ValueIdx

section Def
variable {F : FTy → Type} [FloatOps F]

/-- The closing lines' result from the two result arrays: slice, read as [32, 4], total from zero, for each; then the
    quotient of the totals. -/
def tailVal (N D : (⟨S32x4x1x128, .f32⟩ : BufTy).Contents (Elt F)) : (⟨S_, .f32⟩ : BufTy).Contents (Elt F) :=
  Host.divf
    (Host.reduceAdd (fun i => shapeCast S32x4 (extractStridedSlice S32x4x1x1 ![0, 0, 0, 0] N slices_S32x4x1x128_S32x4x1x1_0_0_0_0) shapeCasts_S32x4x1x1_S32x4 i) (constant S_ .f32 0x00000000#32) reducesTo_S32x4_S_d0_1 h_S_)
    (Host.reduceAdd (fun i => shapeCast S32x4 (extractStridedSlice S32x4x1x1 ![0, 0, 0, 0] D slices_S32x4x1x128_S32x4x1x1_0_0_0_0) shapeCasts_S32x4x1x1_S32x4 i) (constant S_ .f32 0x00000000#32) reducesTo_S32x4_S_d0_1 h_S_)

end Def

/-- The [32, 4] reading of the slice, at (b, q), is the array at (b, q, 0, 0). -/
theorem cast_slice_at {α : Type} (X : S32x4x1x128.Idx → α) (b : Fin 32) (q : Fin 4) :
    shapeCast S32x4 (extractStridedSlice S32x4x1x1 ![0, 0, 0, 0] X slices_S32x4x1x128_S32x4x1x1_0_0_0_0) shapeCasts_S32x4x1x1_S32x4 (ix2 b q)
      = X (ix4 b q 0 0) := by
  refine (shapeCast_apply _ shapeCasts_S32x4x1x1_S32x4 (ix2 b q) (ix4 b q (0 : Fin 1) (0 : Fin 1)) ?_).trans ?_
  · rw [Shape.rowMajor_val_four, Shape.rowMajor_val_two]
    show ((b.val * 4 + q.val) * 1 + 0) * 1 + 0 = b.val * 4 + q.val
    omega
  · refine extractStridedSlice_apply _ X slices_S32x4x1x128_S32x4x1x1_0_0_0_0 _ (ix4 b q (0 : Fin 1) (0 : Fin 128)) fun a => ?_
    match a with
    | ⟨0, _⟩ => show b.val = 0 + b.val; omega
    | ⟨1, _⟩ => show q.val = 0 + q.val; omega
    | ⟨2, _⟩ => rfl
    | ⟨3, _⟩ => rfl

/-- A total from the zero constant of the [32, 4] reading of the slice of an array whose entries at (b, q, 0, 0) are
    x b q is the double sum of x. -/
theorem total_at (X : (⟨S32x4x1x128, .f32⟩ : BufTy).Contents (Elt Ideal)) (x : Fin 32 → Fin 4 → EReal)
    (hX : ∀ (b : Fin 32) (q : Fin 4), X (ix4 b q 0 0) = x b q) (o : S_.Idx) :
    Host.reduceAdd (F := Ideal) (fun i => shapeCast S32x4 (extractStridedSlice S32x4x1x1 ![0, 0, 0, 0] X slices_S32x4x1x128_S32x4x1x1_0_0_0_0) shapeCasts_S32x4x1x1_S32x4 i)
      (constant S_ .f32 0x00000000#32) reducesTo_S32x4_S_d0_1 h_S_ o = ∑ b : Fin 32, ∑ q : Fin 4, x b q := by
  simp only [Host.reduceAdd, Ideal.hostReduceAdd_def]
  rw [Ideal.hostReduceAdd_total reducesTo_S32x4_S_d0_1 (fun a => a.elim0)]
  show Ideal.ofBits .f32 0x00000000#32 + _ = _
  rw [Ideal.ofBits_zero_f32, zero_add, sum_idx2]
  exact Finset.sum_congr rfl fun b _ => Finset.sum_congr rfl fun q _ => (cast_slice_at X b q).trans (hX b q)

/-- THE CLOSING LINES' VALUE: the quotient of the two double sums. -/
theorem tailVal_eq (N D : (⟨S32x4x1x128, .f32⟩ : BufTy).Contents (Elt Ideal)) (n d : Fin 32 → Fin 4 → EReal)
    (hN : ∀ (b : Fin 32) (q : Fin 4), N (ix4 b q 0 0) = n b q) (hD : ∀ (b : Fin 32) (q : Fin 4), D (ix4 b q 0 0) = d b q) :
    tailVal (F := Ideal) N D = fun _ => Ideal.div (∑ b : Fin 32, ∑ q : Fin 4, n b q) (∑ b : Fin 32, ∑ q : Fin 4, d b q) := by
  funext o
  show Ideal.div (Host.reduceAdd (F := Ideal) _ _ reducesTo_S32x4_S_d0_1 h_S_ o) (Host.reduceAdd (F := Ideal) _ _ reducesTo_S32x4_S_d0_1 h_S_ o) = _
  rw [total_at N n hN o, total_at D d hD o]

end Cert.KernelIdeal.TailValue

end
-- ==== Proof.KernelValue.lean ====
/-
  The idealized kernel's program ends with the loss: the two result arrays hold, at entry [b, q, 0, 0], tile (b, q)'s
  shares of the numerator and of the denominator, and the host lines after the region add the shares up and divide;
  the tiles partition the rows, so the two sums are the sums over all pairs.
-/
import proofs.«155562_j5179730559713_2_alg».proof.Proof.TileLaunch
import proofs.«155562_j5179730559713_2_alg».proof.Proof.TileArrays
import proofs.«155562_j5179730559713_2_alg».proof.Proof.TailValue
import proofs.«155562_j5179730559713_2_alg».proof.Proof.PairLoss

set_option maxRecDepth 16384

noncomputable section

namespace Cert.KernelIdeal.KernelValue

open Cert.KernelIdeal Cert.KernelIdeal.Gen Cert.KernelIdeal.TileFrame Cert.KernelIdeal.TileLaunch
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-- The program's scalar is the host lines' value of the two result arrays as the region leaves them. -/
theorem result_tail (c : Dev nD) :
    result (F := Ideal) m c = Cert.KernelIdeal.TailValue.tailVal ((dats m 0 c).arrAt 6 cfg0.N) ((dats m 0 c).arrAt 7 cfg0.N) := by
  unfold result
  simp only [hostOps1, List.flatten_cons, List.flatten_nil, List.append_nil]
  after_results
  rw [W1_v1_0, W1_v1_1]
  rfl

/-- The program's scalar is the loss of the three argument arrays. -/
theorem result_eq (c : Dev nD) :
    result (F := Ideal) m c = fun _ => Cert.PairLoss.total (m ((c.tc : Thread nD τ).loc main_arg0)) (m ((c.tc : Thread nD τ).loc main_arg1))
      (m ((c.tc : Thread nD τ).loc main_arg2)) := by
  rw [result_tail, Cert.KernelIdeal.TailValue.tailVal_eq _ _
      (fun b q => Cert.PairLoss.tileNum (m ((c.tc : Thread nD τ).loc main_arg0)) (m ((c.tc : Thread nD τ).loc main_arg1)) (m ((c.tc : Thread nD τ).loc main_arg2)) b q)
      (fun b q => Cert.PairLoss.tileDen (m ((c.tc : Thread nD τ).loc main_arg2)) b q)
      (fun b q => Cert.KernelIdeal.TileArrays.arr6_at m c b q) (fun b q => Cert.KernelIdeal.TileArrays.arr7_at m c b q),
    Cert.PairLoss.total_eq_tiles]
  rfl

end Cert.KernelIdeal.KernelValue

end
-- ==== Proof.RefValue.lean ====
/-
  The reference program's result as ONE function of its three arrays: the total weighted relative difference of
  pairwise distances over the total weight (PairLoss.total).

  The reference forms, for every batch b and pair of points (i, j): the product of the two mask values; the squared
  distance as zero plus the sum over the three coordinates of the squared difference; the distance as
  "if sq > 0 then sqrt (if sq > 0 then sq else 1) else 0", which on the extended reals (a linear order) is
  sqrt (max sq 0); the absolute difference max x (-x) of the two distances over the second distance plus a constant;
  and the sums of the weighted quotient and of the weight over all (b, i, j), each started from zero, whose quotient is
  the result. A sum over all rank-3 indices is the triple sum over the coordinates.
-/
import proofs.«155562_j5179730559713_2_alg».proof.Proof.Gen.ReferenceIdeal.Read
import proofs.«155562_j5179730559713_2_alg».proof.Proof.PairLoss
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-! ## A sum over a rank-3 index set is the triple sum over the coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The guarded square root is the square root of the larger of its argument and zero -/

/-- The square root of zero is zero. -/
theorem sqrt_zero : Ideal.sqrt 0 = 0 := by
  rw [← EReal.coe_zero, Ideal.sqrt_coe, if_neg (lt_irrefl _), Real.sqrt_zero]

/-- "If s > 0 then sqrt (if s > 0 then s else c) else 0" is sqrt (max s 0): the order is linear, so either s > 0 and
    max s 0 = s, or s ≤ 0 and max s 0 = 0 whose square root is 0. The inner alternative c is never read. -/
theorem guarded_sqrt (s c : EReal) :
    Scalar.select (Ideal.cmp .ogt s 0) (Ideal.sqrt (Scalar.select (Ideal.cmp .ogt s 0) s c)) 0 = Ideal.sqrt (max s 0) := by
  by_cases h : (0 : EReal) < s
  · have hc : Ideal.cmp .ogt s 0 = 1#1 := by simp [Ideal.cmp, h]
    rw [hc, select_one, select_one, max_eq_left h.le]
  · have hc : Ideal.cmp .ogt s 0 = 0#1 := by simp [Ideal.cmp, h]
    rw [hc, select_zero, max_eq_right (not_lt.mp h), sqrt_zero]

/-! ## The composed index functions at explicit coordinates -/

section Indices
variable (b : Fin 32) (i j : Fin 1024) (k : Fin 3)

/-- Row mask word: the index functions of the two broadcasts send (b, i, j) to (b, i). -/
theorem idx_row_mask : idx_main_v1 (idx_main_v3 (ix3 b i j)) = ix2 b i := by
  funext a; match a with | ⟨0, _⟩ => rfl | ⟨1, _⟩ => rfl
/-- Column mask word: (b, i, j) to (b, j). -/
theorem idx_col_mask : idx_main_v2 (idx_main_v4 (ix3 b i j)) = ix2 b j := by
  funext a; match a with | ⟨0, _⟩ => rfl | ⟨1, _⟩ => rfl
/-- Row point's coordinate k: (b, i, j, k) to (b, i, k). -/
theorem idx_row_pt : idx_main_v6 (idx_main_v8 (idx_main_v12 (ix3 b i j) k)) = ix3 b i k := by
  funext a; match a with | ⟨0, _⟩ => rfl | ⟨1, _⟩ => rfl | ⟨2, _⟩ => rfl
/-- Column point's coordinate k: (b, i, j, k) to (b, j, k). -/
theorem idx_col_pt : idx_main_v7 (idx_main_v9 (idx_main_v12 (ix3 b i j) k)) = ix3 b j k := by
  funext a; match a with | ⟨0, _⟩ => rfl | ⟨1, _⟩ => rfl | ⟨2, _⟩ => rfl
/-- The same for the second cloud's broadcasts. -/
theorem idx_row_pt' : idx_main_v18 (idx_main_v20 (idx_main_v24 (ix3 b i j) k)) = ix3 b i k := by
  funext a; match a with | ⟨0, _⟩ => rfl | ⟨1, _⟩ => rfl | ⟨2, _⟩ => rfl
theorem idx_col_pt' : idx_main_v19 (idx_main_v21 (idx_main_v24 (ix3 b i j) k)) = ix3 b j k := by
  funext a; match a with | ⟨0, _⟩ => rfl | ⟨1, _⟩ => rfl | ⟨2, _⟩ => rfl

end Indices

/-! ## The stages at explicit coordinates -/

section Stages
variable (x0 x1 : (⟨S32x1024x3, .f32⟩ : BufTy).Contents (Elt Ideal)) (x2 : (⟨S32x1024, .i32⟩ : BufTy).Contents (Elt Ideal))
variable (b : Fin 32) (i j : Fin 1024)

/-- The weight: the product of the two mask values. -/
theorem wt_at : val_main_v5 (F := Ideal) x2 (ix3 b i j) = PairLoss.wt x2 b i j := by
  rw [val_main_v5_apply, val_main_v3_apply, val_main_v1_apply, val_main_v0_apply, val_main_v4_apply, val_main_v2_apply,
    val_main_v0_apply, idx_row_mask, idx_col_mask]
  rfl

/-- The first cloud's squared distance: zero plus the sum over the three coordinates. -/
theorem sq_at0 : val_main_v12 (F := Ideal) x0 (ix3 b i j) = PairLoss.sq x0 b i j := by
  rw [val_main_v12_apply, val_main_cst_apply]
  show Ideal.ofBits .f32 0x00000000#32 + _ = _
  rw [Ideal.ofBits_zero_f32, zero_add]
  refine Finset.sum_congr rfl fun k _ => ?_
  rw [val_main_v11_apply, val_main_v10_apply, val_main_v8_apply, val_main_v6_apply, val_main_v9_apply, val_main_v7_apply,
    idx_row_pt, idx_col_pt]
  rfl

/-- The second cloud's squared distance. -/
theorem sq_at1 : val_main_v24 (F := Ideal) x1 (ix3 b i j) = PairLoss.sq x1 b i j := by
  rw [val_main_v24_apply, val_main_cst_3_apply]
  show Ideal.ofBits .f32 0x00000000#32 + _ = _
  rw [Ideal.ofBits_zero_f32, zero_add]
  refine Finset.sum_congr rfl fun k _ => ?_
  rw [val_main_v23_apply, val_main_v22_apply, val_main_v20_apply, val_main_v18_apply, val_main_v21_apply, val_main_v19_apply,
    idx_row_pt', idx_col_pt']
  rfl

end Stages

section Stages2
variable (x0 x1 : (⟨S32x1024x3, .f32⟩ : BufTy).Contents (Elt Ideal)) (x2 : (⟨S32x1024, .i32⟩ : BufTy).Contents (Elt Ideal))
variable (b : Fin 32) (i j : Fin 1024)

/-- The first cloud's distance: the guarded square root of the squared distance. -/
theorem dist_at0 : val_main_v17 (F := Ideal) x0 (ix3 b i j) = PairLoss.dist x0 b i j := by
  rw [val_main_v17_apply, val_main_v16_apply, val_main_v15_apply, val_main_v14_apply, val_main_v13_apply,
    val_main_cst_0_apply, val_main_call0_v1_apply, val_main_call1_v1_apply, val_main_call1_v0_apply,
    val_main_cst_2_apply, sq_at0]
  show Scalar.select (Ideal.cmp .ogt _ (Ideal.ofBits .f32 0x00000000#32))
    (Ideal.sqrt (Scalar.select (Ideal.cmp .ogt _ (Ideal.ofBits .f32 0x00000000#32)) _ _)) (Ideal.ofBits .f32 0x00000000#32) = _
  rw [Ideal.ofBits_zero_f32, guarded_sqrt]
  rfl

/-- The second cloud's distance. -/
theorem dist_at1 : val_main_v29 (F := Ideal) x1 (ix3 b i j) = PairLoss.dist x1 b i j := by
  rw [val_main_v29_apply, val_main_v28_apply, val_main_v27_apply, val_main_v26_apply, val_main_v25_apply,
    val_main_cst_4_apply, val_main_call2_v1_apply, val_main_call3_v1_apply, val_main_call3_v0_apply,
    val_main_cst_6_apply, sq_at1]
  show Scalar.select (Ideal.cmp .ogt _ (Ideal.ofBits .f32 0x00000000#32))
    (Ideal.sqrt (Scalar.select (Ideal.cmp .ogt _ (Ideal.ofBits .f32 0x00000000#32)) _ _)) (Ideal.ofBits .f32 0x00000000#32) = _
  rw [Ideal.ofBits_zero_f32, guarded_sqrt]
  rfl

/-- The pair's weighted loss: the absolute difference of the distances over the second distance plus the constant,
    times the weight. -/
theorem loss_at : val_main_v35 (F := Ideal) x0 x1 x2 (ix3 b i j) = PairLoss.loss x0 x1 x2 b i j := by
  rw [val_main_v35_apply, val_main_v34_apply, val_main_v31_apply, val_main_v30_apply, val_main_v33_apply,
    val_main_v32_apply, val_main_cst_7_apply, dist_at0, dist_at1, wt_at]
  rfl

/-- The numerator: the sum over every index, started from zero, is the triple sum of the losses. -/
theorem num_at (q : S_.Idx) : val_main_v36 (F := Ideal) x0 x1 x2 q
    = ∑ b : Fin 32, ∑ i : Fin 1024, ∑ j : Fin 1024, PairLoss.loss x0 x1 x2 b i j := by
  rw [val_main_v36_apply, val_main_cst_8_apply]
  show Ideal.ofBits .f32 0x00000000#32 + _ = _
  rw [Ideal.ofBits_zero_f32, zero_add, sum_idx3]
  exact Finset.sum_congr rfl fun b _ => Finset.sum_congr rfl fun i _ => Finset.sum_congr rfl fun j _ => loss_at x0 x1 x2 b i j

/-- The denominator: the triple sum of the weights. -/
theorem den_at (q : S_.Idx) : val_main_v37 (F := Ideal) x2 q
    = ∑ b : Fin 32, ∑ i : Fin 1024, ∑ j : Fin 1024, PairLoss.wt x2 b i j := by
  rw [val_main_v37_apply, val_main_cst_9_apply]
  show Ideal.ofBits .f32 0x00000000#32 + _ = _
  rw [Ideal.ofBits_zero_f32, zero_add, sum_idx3]
  exact Finset.sum_congr rfl fun b _ => Finset.sum_congr rfl fun i _ => Finset.sum_congr rfl fun j _ => wt_at x2 b i j

/-- THE REFERENCE'S RESULT: at its one index, the total weighted relative difference over the total weight. -/
theorem ref_total : val_main_v38 (F := Ideal) x0 x1 x2 = fun _ => PairLoss.total x0 x1 x2 := by
  funext q
  rw [val_main_v38_apply, num_at, den_at]
  rfl

end Stages2

end Cert.ReferenceIdeal.RefValue

end
-- ==== Proof.lean ====
/-
  The certificate of the pairwise-distance loss kernel against its reference.

  Both programs compute, over the extended reals, the sum over all pairs (b, i, j) of the relative difference of the two
  clouds' pairwise distances weighted by the product of the two mask entries, divided by the sum of the weights. The
  kernel takes the square root of max(sq, 0) where the reference guards the root by sq > 0 (the same value: the root of 0
  is 0), and sums tile by tile where the reference sums all at once (the same sum: addition of extended reals is
  commutative and associative). No finiteness of the inputs is needed.
  The frames: each kernel program's run (written once for any float instance) with the result dropped; the reference's
  generated run with the result dropped. No operation was rewritten by the idealization, so there is nothing to preserve.
-/
import proofs.«155562_j5179730559713_2_alg».proof.Defs
import proofs.«155562_j5179730559713_2_alg».proof.Proof.Gen.Kernel
import proofs.«155562_j5179730559713_2_alg».proof.Proof.Gen.KernelIdeal
import proofs.«155562_j5179730559713_2_alg».proof.Proof.Gen.ReferenceIdeal
import proofs.«155562_j5179730559713_2_alg».proof.Proof.Gen.ReferenceIdeal.Run
import proofs.«155562_j5179730559713_2_alg».proof.Proof.Gen.ReferenceIdeal.Read
import proofs.«155562_j5179730559713_2_alg».proof.Proof.Gen.Pre_finite_inputs
import proofs.«155562_j5179730559713_2_alg».proof.Proof.KernelTileLaunch
import proofs.«155562_j5179730559713_2_alg».proof.Proof.TileLaunch
import proofs.«155562_j5179730559713_2_alg».proof.Proof.KernelValue
import proofs.«155562_j5179730559713_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ =>
  (θ_run (Cert.Kernel.defs (F := Bits)) _ _).mono (fun _ h c => (h c).2) (Cert.Kernel.TileLaunch.run_main (F := Bits) m ρ)

theorem frame_ki : Cert.frame_KernelIdeal := fun m ρ _ =>
  (θ_run (Cert.KernelIdeal.defs (F := Ideal)) _ _).mono (fun _ h c => (h c).2) (Cert.KernelIdeal.TileLaunch.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-- Both programs end at the loss of the argument arrays, which agree. -/
theorem algebraic : Cert.algebraic_KernelIdeal_ReferenceIdeal := by
  intro m ρ m' ρ' _ hagree
  refine ⟨fun c => fun _ => Cert.PairLoss.total (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run (Cert.KernelIdeal.defs (F := Ideal)) _ _).mono
      (fun _ h c => ⟨(h c).1.trans (Cert.KernelIdeal.KernelValue.result_eq m c), (h c).2⟩)
      (Cert.KernelIdeal.TileLaunch.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v38_eq, Cert.ReferenceIdeal.RefValue.ref_total, (hagree c).1, (hagree c).2.1, (hagree c).2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
